-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S16x6x256x256 : Shape := ⟨4, ![16, 6, 256, 256]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel
  bcast_S_S16x6x256x256 : S_.BroadcastsInDim S16x6x256x256 (![] : Fin 0 → Fin S16x6x256x256.rank)
  reducesTo_S16x6x256x256_S_d0_1_2_3 : S16x6x256x256.ReducesTo [0, 1, 2, 3] S_

variable [Facts]

def fn {F : FTy → Type} [FloatOps F] (main_arg0 : FVec F S16x3x256x256 .f32) (main_arg1 : FVec F S16x6x256x256 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S16x6x256x256 .f32 := Host.absf main_arg1
  let main_cst_0 : FVec F S_ .f32 := constant S_ .f32 0x7F800000#32
  let main_v5 : FVec F S16x6x256x256 .f32 := broadcastInDim S16x6x256x256 ![] bcast_S_S16x6x256x256 main_cst_0
  let main_v6 : IVec S16x6x256x256 1 := cmpf .olt main_v4 main_v5
  let main_c_1 : IVec S_ 1 := constantI S_ 1 1#1
  let main_v7 : IVec S_ 1 := (fun x v => Host.reduce IntOp.andi x v reducesTo_S16x6x256x256_S_d0_1_2_3 h_S_) main_v6 main_c_1
  let main_v8 : IVec S_ 1 := andi main_v3 main_v7
  main_v8
-- ==== Kernel.lean ====
abbrev S16x3x256x256 : Shape := ⟨4, ![16, 3, 256, 256]⟩
abbrev S16x6x256x256 : Shape := ⟨4, ![16, 6, 256, 256]⟩
abbrev S16x16x256x256 : Shape := ⟨4, ![16, 16, 256, 256]⟩
abbrev S1x3x256x256 : Shape := ⟨4, ![1, 3, 256, 256]⟩
abbrev S1x6x256x256 : Shape := ⟨4, ![1, 6, 256, 256]⟩
abbrev S1x16x256x256 : Shape := ⟨4, ![1, 16, 256, 256]⟩
abbrev S3x256x256 : Shape := ⟨3, ![3, 256, 256]⟩
abbrev S6x256x256 : Shape := ⟨3, ![6, 256, 256]⟩
abbrev S256x256 : Shape := ⟨2, ![256, 256]⟩
abbrev S1x1x256x256 : Shape := ⟨4, ![1, 1, 256, 256]⟩
abbrev S16x8x256x256 : Shape := ⟨4, ![16, 8, 256, 256]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S16x3x256x256, .f32⟩
  | .hbm, ⟨1, _⟩ => ⟨S16x6x256x256, .f32⟩
  | .hbm, ⟨2, _⟩ => ⟨S16x16x256x256, .f32⟩
  | .hbm, ⟨3, _⟩ => ⟨S16x8x256x256, .f32⟩
  | .hbm, ⟨4, _⟩ => ⟨S16x8x256x256, .f32⟩
  | .hbm, ⟨5, _⟩ => ⟨S_, .f32⟩
  | .hbm, ⟨6, _⟩ => ⟨S16x8x256x256, .f32⟩
  | .hbm, ⟨7, _⟩ => ⟨S16x8x256x256, .i1⟩
  | .hbm, ⟨8, _⟩ => ⟨S16x8x256x256, .f32⟩
  | .hbm, ⟨9, _⟩ => ⟨S16x8x256x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x3x256x256, .f32⟩
  | .local _ .vmem, ⟨1, _⟩ => ⟨S1x3x256x256, .f32⟩
  | .local _ .vmem, ⟨2, _⟩ => ⟨S1x6x256x256, .f32⟩
  | .local _ .vmem, ⟨3, _⟩ => ⟨S1x6x256x256, .f32⟩
  | .local _ .vmem, ⟨4, _⟩ => ⟨S1x16x256x256, .f32⟩
  | .local _ .vmem, ⟨5, _⟩ => ⟨S1x16x256x256, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x3x256x256_S1x3x256x256_0_0_0_0 : ∀ a, (![0, 0, 0, 0] : Fin 4 → Nat) a + S1x3x256x256.size a ≤ S1x3x256x256.size a
  h_S1x3x256x256 : 0 < S1x3x256x256.numel
  shapeCasts_S1x3x256x256_S3x256x256 : S1x3x256x256.ShapeCasts S3x256x256
  inb_S1x6x256x256_S1x6x256x256_0_0_0_0 : ∀ a, (![0, 0, 0, 0] : Fin 4 → Nat) a + S1x6x256x256.size a ≤ S1x6x256x256.size a
  h_S1x6x256x256 : 0 < S1x6x256x256.numel
  shapeCasts_S1x6x256x256_S6x256x256 : S1x6x256x256.ShapeCasts S6x256x256
  rotates_S3x256x256_d1 : S3x256x256.Rotates 1 none
  rotates_S3x256x256_d2 : S3x256x256.Rotates 2 none
  iota_S3x256x256_d1_w32 : S3x256x256.Iotas .tc 32 [1]
  iota_S3x256x256_d2_w32 : S3x256x256.Iotas .tc 32 [2]
  reduces_S3x256x256_S256x256 : S3x256x256.Reduces [0] S256x256
  inb_S1x16x256x256_S1x1x256x256_0_0_0_0 : ∀ a, (![0, 0, 0, 0] : Fin 4 → Nat) a + S1x1x256x256.size a ≤ S1x16x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  rotates_S6x256x256_d1 : S6x256x256.Rotates 1 none
  rotates_S6x256x256_d2 : S6x256x256.Rotates 2 none
  iota_S6x256x256_d1_w32 : S6x256x256.Iotas .tc 32 [1]
  iota_S6x256x256_d2_w32 : S6x256x256.Iotas .tc 32 [2]
  reduces_S6x256x256_S256x256 : S6x256x256.Reduces [0] S256x256
  inb_S1x16x256x256_S1x1x256x256_0_8_0_0 : ∀ a, (![0, 8, 0, 0] : Fin 4 → Nat) a + S1x1x256x256.size a ≤ S1x16x256x256.size a
  inb_S1x16x256x256_S1x1x256x256_0_1_0_0 : ∀ a, (![0, 1, 0, 0] : Fin 4 → Nat) a + S1x1x256x256.size a ≤ S1x16x256x256.size a
  inb_S1x16x256x256_S1x1x256x256_0_9_0_0 : ∀ a, (![0, 9, 0, 0] : Fin 4 → Nat) a + S1x1x256x256.size a ≤ S1x16x256x256.size a
  inb_S1x16x256x256_S1x1x256x256_0_2_0_0 : ∀ a, (![0, 2, 0, 0] : Fin 4 → Nat) a + S1x1x256x256.size a ≤ S1x16x256x256.size a
  inb_S1x16x256x256_S1x1x256x256_0_10_0_0 : ∀ a, (![0, 10, 0, 0] : Fin 4 → Nat) a + S1x1x256x256.size a ≤ S1x16x256x256.size a
  inb_S1x16x256x256_S1x1x256x256_0_3_0_0 : ∀ a, (![0, 3, 0, 0] : Fin 4 → Nat) a + S1x1x256x256.size a ≤ S1x16x256x256.size a
  inb_S1x16x256x256_S1x1x256x256_0_11_0_0 : ∀ a, (![0, 11, 0, 0] : Fin 4 → Nat) a + S1x1x256x256.size a ≤ S1x16x256x256.size a
  inb_S1x16x256x256_S1x1x256x256_0_4_0_0 : ∀ a, (![0, 4, 0, 0] : Fin 4 → Nat) a + S1x1x256x256.size a ≤ S1x16x256x256.size a
  inb_S1x16x256x256_S1x1x256x256_0_12_0_0 : ∀ a, (![0, 12, 0, 0] : Fin 4 → Nat) a + S1x1x256x256.size a ≤ S1x16x256x256.size a
  inb_S1x16x256x256_S1x1x256x256_0_5_0_0 : ∀ a, (![0, 5, 0, 0] : Fin 4 → Nat) a + S1x1x256x256.size a ≤ S1x16x256x256.size a
  inb_S1x16x256x256_S1x1x256x256_0_13_0_0 : ∀ a, (![0, 13, 0, 0] : Fin 4 → Nat) a + S1x1x256x256.size a ≤ S1x16x256x256.size a
  inb_S1x16x256x256_S1x1x256x256_0_6_0_0 : ∀ a, (![0, 6, 0, 0] : Fin 4 → Nat) a + S1x1x256x256.size a ≤ S1x16x256x256.size a
  inb_S1x16x256x256_S1x1x256x256_0_14_0_0 : ∀ a, (![0, 14, 0, 0] : Fin 4 → Nat) a + S1x1x256x256.size a ≤ S1x16x256x256.size a
  inb_S1x16x256x256_S1x1x256x256_0_7_0_0 : ∀ a, (![0, 7, 0, 0] : Fin 4 → Nat) a + S1x1x256x256.size a ≤ S1x16x256x256.size a
  inb_S1x16x256x256_S1x1x256x256_0_15_0_0 : ∀ a, (![0, 15, 0, 0] : Fin 4 → Nat) a + S1x1x256x256.size a ≤ S1x16x256x256.size a
  slices_S16x16x256x256_S16x8x256x256_0_0_0_0 : S16x16x256x256.Slices ![0, 0, 0, 0] S16x8x256x256
  slices_S16x16x256x256_S16x8x256x256_0_8_0_0 : S16x16x256x256.Slices ![0, 8, 0, 0] S16x8x256x256
  bcast_S_S16x8x256x256 : S_.BroadcastsInDim S16x8x256x256 (![] : Fin 0 → Fin S16x8x256x256.rank)
  reducesTo_S16x8x256x256_S_d0_1_2_3 : S16x8x256x256.ReducesTo [0, 1, 2, 3] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x256.size a ≤ S16x3x256x256.size a
  hwx0_0 : ∀ i : grid0.Coords, EltTy.bits .f32 = 32 ∨ (Rect.block (s := S16x3x256x256) S1x3x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x256x256.size a ≤ S16x6x256x256.size a
  hwx0_1 : ∀ i : grid0.Coords, EltTy.bits .f32 = 32 ∨ (Rect.block (s := S16x6x256x256) S1x6x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S16x16x256x256.size a
  hwx0_2 : ∀ i : grid0.Coords, EltTy.bits .f32 = 32 ∨ (Rect.block (s := S16x16x256x256) S1x16x256x256.size (cc0_transform_2 i) (hinb0_2 i)).WholeWords (EltTy.packing .f32)

variable [Facts₀]

abbrev win0_0 : Pipeline.Window sig grid0 :=
  Pipeline.Window.ofSpec (Memref.whole main_arg0) S1x3x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x6x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S16x6x256x256 : Shape := ⟨4, ![16, 6, 256, 256]⟩
abbrev S16x3x1x256x256 : Shape := ⟨5, ![16, 3, 1, 256, 256]⟩
abbrev S_ : Shape := ⟨0, ![]⟩
abbrev S16x3x258x258 : Shape := ⟨4, ![16, 3, 258, 258]⟩
abbrev S16x3x8x256x256 : Shape := ⟨5, ![16, 3, 8, 256, 256]⟩
abbrev S16x8x256x256 : Shape := ⟨4, ![16, 8, 256, 256]⟩
abbrev S16x6x1x256x256 : Shape := ⟨5, ![16, 6, 1, 256, 256]⟩
abbrev S16x6x258x258 : Shape := ⟨4, ![16, 6, 258, 258]⟩
abbrev S16x6x8x256x256 : Shape := ⟨5, ![16, 6, 8, 256, 256]⟩
abbrev S16x16x256x256 : Shape := ⟨4, ![16, 16, 256, 256]⟩

abbrev nBuf : Space → Nat
  | .hbm => 70
  | .vmem => 0
  | .smem => 0
  | _ => 0

abbrev bufTy : (tb : Table) → Fin (tcTables nBuf tb) → BufTy
  | .hbm, ⟨0, _⟩ => ⟨S16x3x256x256, .f32⟩
  | .hbm, ⟨1, _⟩ => ⟨S16x6x256x256, .f32⟩
  | .hbm, ⟨2, _⟩ => ⟨S16x3x1x256x256, .f32⟩
  | .hbm, ⟨3, _⟩ => ⟨S_, .i32⟩
  | .hbm, ⟨4, _⟩ => ⟨S_, .f32⟩
  | .hbm, ⟨5, _⟩ => ⟨S16x3x258x258, .f32⟩
  | .hbm, ⟨6, _⟩ => ⟨S16x3x256x256, .f32⟩
  | .hbm, ⟨7, _⟩ => ⟨S16x3x256x256, .f32⟩
  | .hbm, ⟨8, _⟩ => ⟨S16x3x256x256, .f32⟩
  | .hbm, ⟨9, _⟩ => ⟨S16x3x256x256, .f32⟩
  | .hbm, ⟨10, _⟩ => ⟨S16x3x256x256, .f32⟩
  | .hbm, ⟨11, _⟩ => ⟨S16x3x256x256, .f32⟩
  | .hbm, ⟨12, _⟩ => ⟨S16x3x256x256, .f32⟩
  | .hbm, ⟨13, _⟩ => ⟨S16x3x256x256, .f32⟩
  | .hbm, ⟨14, _⟩ => ⟨S16x3x1x256x256, .f32⟩
  | .hbm, ⟨15, _⟩ => ⟨S16x3x1x256x256, .f32⟩
  | .hbm, ⟨16, _⟩ => ⟨S16x3x1x256x256, .f32⟩
  | .hbm, ⟨17, _⟩ => ⟨S16x3x1x256x256, .f32⟩
  | .hbm, ⟨18, _⟩ => ⟨S16x3x1x256x256, .f32⟩
  | .hbm, ⟨19, _⟩ => ⟨S16x3x1x256x256, .f32⟩
  | .hbm, ⟨20, _⟩ => ⟨S16x3x1x256x256, .f32⟩
  | .hbm, ⟨21, _⟩ => ⟨S16x3x1x256x256, .f32⟩
  | .hbm, ⟨22, _⟩ => ⟨S16x3x8x256x256, .f32⟩
  | .hbm, ⟨23, _⟩ => ⟨S16x3x8x256x256, .f32⟩
  | .hbm, ⟨24, _⟩ => ⟨S16x3x8x256x256, .f32⟩
  | .hbm, ⟨25, _⟩ => ⟨S16x3x8x256x256, .f32⟩
  | .hbm, ⟨26, _⟩ => ⟨S_, .f32⟩
  | .hbm, ⟨27, _⟩ => ⟨S16x8x256x256, .f32⟩
  | .hbm, ⟨28, _⟩ => ⟨S16x8x256x256, .f32⟩
  | .hbm, ⟨29, _⟩ => ⟨S_, .f32⟩
  | .hbm, ⟨30, _⟩ => ⟨S16x8x256x256, .f32⟩
  | .hbm, ⟨31, _⟩ => ⟨S16x8x256x256, .f32⟩
  | .hbm, ⟨32, _⟩ => ⟨S16x8x256x256, .f32⟩
  | .hbm, ⟨33, _⟩ => ⟨S16x6x1x256x256, .f32⟩
  | .hbm, ⟨34, _⟩ => ⟨S_, .i32⟩
  | .hbm, ⟨35, _⟩ => ⟨S_, .f32⟩
  | .hbm, ⟨36, _⟩ => ⟨S16x6x258x258, .f32⟩
  | .hbm, ⟨37, _⟩ => ⟨S16x6x256x256, .f32⟩
  | .hbm, ⟨38, _⟩ => ⟨S16x6x256x256, .f32⟩
  | .hbm, ⟨39, _⟩ => ⟨S16x6x256x256, .f32⟩
  | .hbm, ⟨40, _⟩ => ⟨S16x6x256x256, .f32⟩
  | .hbm, ⟨41, _⟩ => ⟨S16x6x256x256, .f32⟩
  | .hbm, ⟨42, _⟩ => ⟨S16x6x256x256, .f32⟩
  | .hbm, ⟨43, _⟩ => ⟨S16x6x256x256, .f32⟩
  | .hbm, ⟨44, _⟩ => ⟨S16x6x256x256, .f32⟩
  | .hbm, ⟨45, _⟩ => ⟨S16x6x1x256x256, .f32⟩
  | .hbm, ⟨46, _⟩ => ⟨S16x6x1x256x256, .f32⟩
  | .hbm, ⟨47, _⟩ => ⟨S16x6x1x256x256, .f32⟩
  | .hbm, ⟨48, _⟩ => ⟨S16x6x1x256x256, .f32⟩
  | .hbm, ⟨49, _⟩ => ⟨S16x6x1x256x256, .f32⟩
  | .hbm, ⟨50, _⟩ => ⟨S16x6x1x256x256, .f32⟩
  | .hbm, ⟨51, _⟩ => ⟨S16x6x1x256x256, .f32⟩
  | .hbm, ⟨52, _⟩ => ⟨S16x6x1x256x256, .f32⟩
  | .hbm, ⟨53, _⟩ => ⟨S16x6x8x256x256, .f32⟩
  | .hbm, ⟨54, _⟩ => ⟨S16x6x8x256x256, .f32⟩
  | .hbm, ⟨55, _⟩ => ⟨S16x6x8x256x256, .f32⟩
  | .hbm, ⟨56, _⟩ => ⟨S16x6x8x256x256, .f32⟩
  | .hbm, ⟨57, _⟩ => ⟨S_, .f32⟩
  | .hbm, ⟨58, _⟩ => ⟨S16x8x256x256, .f32⟩
  | .hbm, ⟨59, _⟩ => ⟨S16x8x256x256, .f32⟩
  | .hbm, ⟨60, _⟩ => ⟨S_, .f32⟩
  | .hbm, ⟨61, _⟩ => ⟨S16x8x256x256, .f32⟩
  | .hbm, ⟨62, _⟩ => ⟨S16x8x256x256, .i1⟩
  | .hbm, ⟨63, _⟩ => ⟨S16x8x256x256, .f32⟩
  | .hbm, ⟨64, _⟩ => ⟨S16x8x256x256, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16x16x256x256, .f32⟩
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_call1_v0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_2 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]

class Facts₀ : Prop where
  bcast_S16x3x256x256_S16x3x1x256x256_0_1_3_4 : S16x3x256x256.BroadcastsInDim S16x3x1x256x256 (![0, 1, 3, 4] : Fin 4 → Fin S16x3x1x256x256.rank)
  pads_S16x3x256x256_S16x3x258x258_000_000_110_110 : S16x3x256x256.Pads (![0, 0, 1, 1] : Fin 4 → Nat) ![0, 0, 1, 1] ![0, 0, 0, 0] S16x3x258x258
  h_S_ : 0 < S_.numel
  slices_S16x3x258x258_S16x3x256x256_0_0_0_0 : S16x3x258x258.Slices ![0, 0, 0, 0] S16x3x256x256
  slices_S16x3x258x258_S16x3x256x256_0_0_0_1 : S16x3x258x258.Slices ![0, 0, 0, 1] S16x3x256x256
  slices_S16x3x258x258_S16x3x256x256_0_0_0_2 : S16x3x258x258.Slices ![0, 0, 0, 2] S16x3x256x256
  slices_S16x3x258x258_S16x3x256x256_0_0_1_0 : S16x3x258x258.Slices ![0, 0, 1, 0] S16x3x256x256
  slices_S16x3x258x258_S16x3x256x256_0_0_1_2 : S16x3x258x258.Slices ![0, 0, 1, 2] S16x3x256x256
  slices_S16x3x258x258_S16x3x256x256_0_0_2_0 : S16x3x258x258.Slices ![0, 0, 2, 0] S16x3x256x256
  slices_S16x3x258x258_S16x3x256x256_0_0_2_1 : S16x3x258x258.Slices ![0, 0, 2, 1] S16x3x256x256
  slices_S16x3x258x258_S16x3x256x256_0_0_2_2 : S16x3x258x258.Slices ![0, 0, 2, 2] S16x3x256x256
  concatenates_S16x3x1x256x256_S16x3x1x256x256_S16x3x1x256x256_S16x3x1x256x256_S16x3x1x256x256_S16x3x1x256x256_S16x3x1x256x256_S16x3x1x256x256_S16x3x8x256x256_d2 : Shape.Concatenates [S16x3x1x256x256, S16x3x1x256x256, S16x3x1x256x256, S16x3x1x256x256, S16x3x1x256x256, S16x3x1x256x256, S16x3x1x256x256, S16x3x1x256x256] S16x3x8x256x256 2
  bcast_S16x3x1x256x256_S16x3x8x256x256_0_1_2_3_4 : S16x3x1x256x256.BroadcastsInDim S16x3x8x256x256 (![0, 1, 2, 3, 4] : Fin 5 → Fin S16x3x8x256x256.rank)
  reducesTo_S16x3x8x256x256_S16x8x256x256_d1 : S16x3x8x256x256.ReducesTo [1] S16x8x256x256
  bcast_S_S16x8x256x256 : S_.BroadcastsInDim S16x8x256x256 (![] : Fin 0 → Fin S16x8x256x256.rank)
  bcast_S16x6x256x256_S16x6x1x256x256_0_1_3_4 : S16x6x256x256.BroadcastsInDim S16x6x1x256x256 (![0, 1, 3, 4] : Fin 4 → Fin S16x6x1x256x256.rank)
  pads_S16x6x256x256_S16x6x258x258_000_000_110_110 : S16x6x256x256.Pads (![0, 0, 1, 1] : Fin 4 → Nat) ![0, 0, 1, 1] ![0, 0, 0, 0] S16x6x258x258
  slices_S16x6x258x258_S16x6x256x256_0_0_0_0 : S16x6x258x258.Slices ![0, 0, 0, 0] S16x6x256x256
  slices_S16x6x258x258_S16x6x256x256_0_0_0_1 : S16x6x258x258.Slices ![0, 0, 0, 1] S16x6x256x256
  slices_S16x6x258x258_S16x6x256x256_0_0_0_2 : S16x6x258x258.Slices ![0, 0, 0, 2] S16x6x256x256
  slices_S16x6x258x258_S16x6x256x256_0_0_1_0 : S16x6x258x258.Slices ![0, 0, 1, 0] S16x6x256x256
  slices_S16x6x258x258_S16x6x256x256_0_0_1_2 : S16x6x258x258.Slices ![0, 0, 1, 2] S16x6x256x256
  slices_S16x6x258x258_S16x6x256x256_0_0_2_0 : S16x6x258x258.Slices ![0, 0, 2, 0] S16x6x256x256
  slices_S16x6x258x258_S16x6x256x256_0_0_2_1 : S16x6x258x258.Slices ![0, 0, 2, 1] S16x6x256x256
  slices_S16x6x258x258_S16x6x256x256_0_0_2_2 : S16x6x258x258.Slices ![0, 0, 2, 2] S16x6x256x256
  concatenates_S16x6x1x256x256_S16x6x1x256x256_S16x6x1x256x256_S16x6x1x256x256_S16x6x1x256x256_S16x6x1x256x256_S16x6x1x256x256_S16x6x1x256x256_S16x6x8x256x256_d2 : Shape.Concatenates [S16x6x1x256x256, S16x6x1x256x256, S16x6x1x256x256, S16x6x1x256x256, S16x6x1x256x256, S16x6x1x256x256, S16x6x1x256x256, S16x6x1x256x256] S16x6x8x256x256 2
  bcast_S16x6x1x256x256_S16x6x8x256x256_0_1_2_3_4 : S16x6x1x256x256.BroadcastsInDim S16x6x8x256x256 (![0, 1, 2, 3, 4] : Fin 5 → Fin S16x6x8x256x256.rank)
  reducesTo_S16x6x8x256x256_S16x8x256x256_d1 : S16x6x8x256x256.ReducesTo [1] S16x8x256x256
  reducesTo_S16x8x256x256_S_d0_1_2_3 : S16x8x256x256.ReducesTo [0, 1, 2, 3] S_
  concatenates_S16x8x256x256_S16x8x256x256_S16x16x256x256_d1 : Shape.Concatenates [S16x8x256x256, S16x8x256x256] S16x16x256x256 1

variable [Facts₀]

class Facts : Prop extends Facts₀ where

variable [Facts]
-- ==== Proof.Spec.lean ====
/-
  The specification both programs are compared with.

  An image batch `x` of shape [B, C, 256, 256] is compared, pixel by pixel, with its eight neighbours in a 3×3
  window; a neighbour that falls outside the image counts as zero (the image is surrounded by a one-pixel
  border of zeros). For the window offset `(oy, ox) ∈ {0,1,2}²` (`1` is the centre, `0` the row above / the column
  to the left, `2` the row below / the column to the right) the squared distance at pixel `(h, w)` is
  `dist2 x oy ox b h w = ∑ c, (x[b,c,h,w] − nbr[b,c,h,w])²` with `nbr[b,c,h,w] = x[b,c,h+oy−1,w+ox−1]` inside the image
  and `0` outside. The similarity maps hold, for the eight offsets in row-major order with the centre left out,
  `exp(−√dist2)` of the first image (planes 0–7) and `√dist2` of the second (planes 8–15); the loss is the mean over
  all planes, batches and pixels of the second where the first is at least 0.1.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- Row (or column) `h` moved by the window offset `o` (`o = 1` stays, `0` goes one back, `2` one forward), around the end:
    inside the image this is `h + o − 1`. -/
def moved (o : ℕ) (h : Fin 256) : Fin 256 := ⟨(h.val + o + 255) % 256, Nat.mod_lt _ (by decide)⟩

/-- The moved row is a row of the image, not of the zero border: `0 ≤ h + o − 1 < 256`. -/
def inside (o : ℕ) (h : Fin 256) : Prop := 1 ≤ h.val + o ∧ h.val + o ≤ 256

instance (o : ℕ) (h : Fin 256) : Decidable (inside o h) := by unfold inside; infer_instance

theorem moved_val_of_inside {o : ℕ} {h : Fin 256} (hi : inside o h) : (moved o h).val + 1 = h.val + o := by
  unfold inside at hi; unfold moved; simp only; omega

/-- The neighbour of pixel `(h, w)` at window offset `(oy, ox)`, zero outside the image. -/
def nbr {B C : ℕ} (x : (⟨4, ![B, C, 256, 256]⟩ : Shape).Idx → EReal) (oy ox : ℕ) (b : Fin B) (c : Fin C) (h w : Fin 256) : EReal :=
  if inside oy h ∧ inside ox w then x (ix4 b c (moved oy h) (moved ox w)) else 0

/-- The squared distance, over the channels, between a pixel and its neighbour at the offset. -/
def dist2 {B C : ℕ} (x : (⟨4, ![B, C, 256, 256]⟩ : Shape).Idx → EReal) (oy ox : ℕ) (b : Fin B) (h w : Fin 256) : EReal :=
  ∑ c : Fin C, (x (ix4 b c h w) - nbr x oy ox b c h w) * (x (ix4 b c h w) - nbr x oy ox b c h w)

/-- The eight window offsets in row-major order, the centre left out: rows, -/
def offY : Fin 8 → ℕ := ![0, 0, 0, 1, 1, 2, 2, 2]
/-- and columns. -/
def offX : Fin 8 → ℕ := ![0, 1, 2, 0, 2, 0, 1, 2]

/-- Plane `k` of the first half: `exp(−1 · √dist2)` (the factor is the literal −1.0). -/
def simW {B C : ℕ} (x : (⟨4, ![B, C, 256, 256]⟩ : Shape).Idx → EReal) (b : Fin B) (k : Fin 8) (h w : Fin 256) : EReal :=
  Ideal.exp (Ideal.ofBits .f32 0xBF800000#32 * Ideal.sqrt (dist2 x (offY k) (offX k) b h w))

/-- Plane `k` of the second half: `√dist2`. -/
def simV {B C : ℕ} (x : (⟨4, ![B, C, 256, 256]⟩ : Shape).Idx → EReal) (b : Fin B) (k : Fin 8) (h w : Fin 256) : EReal :=
  Ideal.sqrt (dist2 x (offY k) (offX k) b h w)

/-- The first half as an array [B, 8, 256, 256]. -/
def simWarr {B C : ℕ} (x : (⟨4, ![B, C, 256, 256]⟩ : Shape).Idx → EReal) : (⟨4, ![B, 8, 256, 256]⟩ : Shape).Idx → EReal :=
  fun i => simW x (i 0) (i 1) (i 2) (i 3)

/-- The second half as an array [B, 8, 256, 256]. -/
def simVarr {B C : ℕ} (x : (⟨4, ![B, C, 256, 256]⟩ : Shape).Idx → EReal) : (⟨4, ![B, 8, 256, 256]⟩ : Shape).Idx → EReal :=
  fun i => simV x (i 0) (i 1) (i 2) (i 3)

/-- The sixteen similarity maps as one array [B, 16, 256, 256]: planes 0–7 from `x`, planes 8–15 from `y`. -/
def simMaps {B C D : ℕ} (x : (⟨4, ![B, C, 256, 256]⟩ : Shape).Idx → EReal) (y : (⟨4, ![B, D, 256, 256]⟩ : Shape).Idx → EReal) :
    (⟨4, ![B, 16, 256, 256]⟩ : Shape).Idx → EReal :=
  fun i => if hk : (i 1).val < 8 then simW x (i 0) ⟨(i 1).val, hk⟩ (i 2) (i 3)
    else simV y (i 0) ⟨(i 1).val - 8, by have := (i 1).isLt; simp only [Matrix.cons_val_one, Matrix.cons_val_zero] at this; omega⟩ (i 2) (i 3)

theorem simWarr_apply {B C : ℕ} (x : (⟨4, ![B, C, 256, 256]⟩ : Shape).Idx → EReal) (b : Fin B) (k : Fin 8) (h w : Fin 256) :
    simWarr x (ix4 b k h w) = simW x b k h w := rfl

theorem simVarr_apply {B C : ℕ} (x : (⟨4, ![B, C, 256, 256]⟩ : Shape).Idx → EReal) (b : Fin B) (k : Fin 8) (h w : Fin 256) :
    simVarr x (ix4 b k h w) = simV x b k h w := rfl

/-- A plane of the first half. -/
theorem simMaps_lo {B C D : ℕ} (x : (⟨4, ![B, C, 256, 256]⟩ : Shape).Idx → EReal) (y : (⟨4, ![B, D, 256, 256]⟩ : Shape).Idx → EReal)
    (b : Fin B) (k : Fin 8) (k' : Fin 16) (hk : k'.val = k.val) (h w : Fin 256) :
    simMaps x y (ix4 b k' h w) = simW x b k h w := by
  have h8 : k'.val < 8 := by have := k.isLt; omega
  unfold simMaps
  show (if hk : k'.val < 8 then simW x b ⟨k'.val, hk⟩ h w else _) = _
  rw [dif_pos h8]
  exact congrArg (fun q => simW x b q h w) (Fin.ext hk)

/-- A plane of the second half. -/
theorem simMaps_hi {B C D : ℕ} (x : (⟨4, ![B, C, 256, 256]⟩ : Shape).Idx → EReal) (y : (⟨4, ![B, D, 256, 256]⟩ : Shape).Idx → EReal)
    (b : Fin B) (k : Fin 8) (k' : Fin 16) (hk : k'.val = 8 + k.val) (h w : Fin 256) :
    simMaps x y (ix4 b k' h w) = simV y b k h w := by
  have h8 : ¬ k'.val < 8 := by omega
  unfold simMaps
  show (if hk : k'.val < 8 then _ else simV y b ⟨k'.val - 8, _⟩ h w) = _
  rw [dif_neg h8]
  exact congrArg (fun q => simV y b q h w) (Fin.ext (by show k'.val - 8 = k.val; omega))

/-- The maps at one batch entry depend on that batch entry of the images only: a block [1, C, 256, 256] cut out of
    the batch at `b` gives, at its one entry, the maps of the whole batch at `b`. -/
theorem dist2_congr {B B' C : ℕ} (x : (⟨4, ![B, C, 256, 256]⟩ : Shape).Idx → EReal) (x' : (⟨4, ![B', C, 256, 256]⟩ : Shape).Idx → EReal)
    (b : Fin B) (b' : Fin B') (hx : ∀ c h w, x (ix4 b c h w) = x' (ix4 b' c h w)) (oy ox : ℕ) (h w : Fin 256) :
    dist2 x oy ox b h w = dist2 x' oy ox b' h w := by
  unfold dist2 nbr
  refine Finset.sum_congr rfl fun c _ => ?_
  rw [hx c h w, hx c (moved oy h) (moved ox w)]

theorem simMaps_congr {B B' C D : ℕ} (x : (⟨4, ![B, C, 256, 256]⟩ : Shape).Idx → EReal) (y : (⟨4, ![B, D, 256, 256]⟩ : Shape).Idx → EReal)
    (x' : (⟨4, ![B', C, 256, 256]⟩ : Shape).Idx → EReal) (y' : (⟨4, ![B', D, 256, 256]⟩ : Shape).Idx → EReal)
    (b : Fin B) (b' : Fin B') (hx : ∀ c h w, x (ix4 b c h w) = x' (ix4 b' c h w)) (hy : ∀ c h w, y (ix4 b c h w) = y' (ix4 b' c h w))
    (k : Fin 16) (h w : Fin 256) :
    simMaps x y (ix4 b k h w) = simMaps x' y' (ix4 b' k h w) := by
  unfold simMaps
  show (if hk : k.val < 8 then simW x b ⟨k.val, hk⟩ h w else simV y b ⟨k.val - 8, _⟩ h w)
    = (if hk : k.val < 8 then simW x' b' ⟨k.val, hk⟩ h w else simV y' b' ⟨k.val - 8, _⟩ h w)
  by_cases hk : k.val < 8
  · rw [dif_pos hk, dif_pos hk]; unfold simW; rw [dist2_congr x x' b b' hx]
  · rw [dif_neg hk, dif_neg hk]; unfold simV; rw [dist2_congr y y' b b' hy]

/-- The first eight planes of the maps, cut out as an array, are the first half. -/
theorem slice_lo (x : (⟨4, ![16, 3, 256, 256]⟩ : Shape).Idx → EReal) (y : (⟨4, ![16, 6, 256, 256]⟩ : Shape).Idx → EReal)
    (hs : (⟨4, ![16, 16, 256, 256]⟩ : Shape).Slices ![0, 0, 0, 0] ⟨4, ![16, 8, 256, 256]⟩) :
    extractStridedSlice ⟨4, ![16, 8, 256, 256]⟩ ![0, 0, 0, 0] (simMaps x y) hs = simWarr x := by
  funext i
  obtain ⟨b, k, h, w, rfl⟩ : ∃ (b : Fin 16) (k : Fin 8) (h w : Fin 256), i = ix4 b k h w := ⟨i 0, i 1, i 2, i 3, eq_ix4 i⟩
  have hk : k.val < 16 := by have := k.isLt; omega
  rw [extractStridedSlice_apply ![0, 0, 0, 0] _ hs (ix4 b k h w) (ix4 b (⟨k.val, hk⟩ : Fin 16) h w) (by
    intro a
    match a with
    | ⟨0, _⟩ => show b.val = 0 + b.val; omega
    | ⟨1, _⟩ => show k.val = 0 + k.val; omega
    | ⟨2, _⟩ => show h.val = 0 + h.val; omega
    | ⟨3, _⟩ => show w.val = 0 + w.val; omega)]
  exact simMaps_lo x y b k _ rfl h w

/-- The last eight planes of the maps, cut out as an array, are the second half. -/
theorem slice_hi (x : (⟨4, ![16, 3, 256, 256]⟩ : Shape).Idx → EReal) (y : (⟨4, ![16, 6, 256, 256]⟩ : Shape).Idx → EReal)
    (hs : (⟨4, ![16, 16, 256, 256]⟩ : Shape).Slices ![0, 8, 0, 0] ⟨4, ![16, 8, 256, 256]⟩) :
    extractStridedSlice ⟨4, ![16, 8, 256, 256]⟩ ![0, 8, 0, 0] (simMaps x y) hs = simVarr y := by
  funext i
  obtain ⟨b, k, h, w, rfl⟩ : ∃ (b : Fin 16) (k : Fin 8) (h w : Fin 256), i = ix4 b k h w := ⟨i 0, i 1, i 2, i 3, eq_ix4 i⟩
  have hk : 8 + k.val < 16 := by have := k.isLt; omega
  rw [extractStridedSlice_apply ![0, 8, 0, 0] _ hs (ix4 b k h w) (ix4 b (⟨8 + k.val, hk⟩ : Fin 16) h w) (by
    intro a
    match a with
    | ⟨0, _⟩ => show b.val = 0 + b.val; omega
    | ⟨1, _⟩ => show 8 + k.val = 8 + k.val; rfl
    | ⟨2, _⟩ => show h.val = 0 + h.val; omega
    | ⟨3, _⟩ => show w.val = 0 + w.val; omega)]
  exact simMaps_hi x y b k _ rfl h w

/-- The loss: the mean (a sum from the literal zero, divided by the literal 2²³ = 16·8·256·256) over all entries of the
    second half where the first half is at least the literal 0.1 — stated with the programs' own host operations,
    which both programs apply alike. -/
def lossOf (Wm Vm : FVec Ideal ⟨4, ![16, 8, 256, 256]⟩ .f32)
    (hb : (⟨0, ![]⟩ : Shape).BroadcastsInDim ⟨4, ![16, 8, 256, 256]⟩ (![] : Fin 0 → Fin 4))
    (hr : (⟨4, ![16, 8, 256, 256]⟩ : Shape).ReducesTo [0, 1, 2, 3] ⟨0, ![]⟩) (h0 : 0 < (⟨0, ![]⟩ : Shape).numel) :
    FVec Ideal ⟨0, ![]⟩ .f32 :=
  Host.divf (F := Ideal)
    (Host.reduceAdd (F := Ideal)
      (mulf (uitofp .f32 (cmpf .oge Wm (broadcastInDim ⟨4, ![16, 8, 256, 256]⟩ ![] hb (constant (F := Ideal) ⟨0, ![]⟩ .f32 0x3DCCCCCD#32)))) Vm)
      (constant (F := Ideal) ⟨0, ![]⟩ .f32 0x00000000#32) hr h0)
    (constant (F := Ideal) ⟨0, ![]⟩ .f32 0x4B000000#32)

end Cert.Spec

end
-- ==== Proof.Shifts.lean ====
/-
  The kernel's building blocks read at an index, generic in the channel count C over arrays [C, 256, 256]:
  a roll by one along the rows or the columns reads the neighbouring row or column around the end; the masks
  that zero the wrapped border are choices on "the moved coordinate is inside the image"; the eight neighbour
  arrays hold the specification's neighbour; the sum of squares over the channels and what is stored of it.
-/
import Idealize.ShloMosaic.Lib.KernelVsHost
import Idealize.ShloMosaic.Lib.Affine
import Idealize.ShloMosaic.Lib.Pipeline.Value
import Idealize.ShloMosaic.Lib.ValueIdx
import Idealize.ShloMosaic.Lib.ValueLayout
import Idealize.ShloMosaic.PureOps.Ideal.Laws
import proofs.«103307_j44281112822069_1_alg».proof.Proof.Spec

noncomputable section

namespace Cert.Shifts

open Idealize.ShloMosaic Idealize.ShloMosaic.ValueIdx Cert.Spec

/-! ## The window offsets on one axis -/

theorem inside_zero_iff (h : Fin 256) : inside 0 h ↔ h.val ≠ 0 := by
  unfold inside; have := h.isLt; omega

theorem inside_two_iff (h : Fin 256) : inside 2 h ↔ h.val ≠ 255 := by
  unfold inside; have := h.isLt; omega

theorem inside_one (h : Fin 256) : inside 1 h := by
  unfold inside; have := h.isLt; omega

theorem moved_one (h : Fin 256) : moved 1 h = h := by
  apply Fin.ext; unfold moved; have := h.isLt; simp only; omega

/-- A coordinate below 256, as a 32-bit word, is the word 0 exactly when it is 0, -/
theorem ofNat_eq_zero_iff (h : Fin 256) : BitVec.ofNat 32 h.val = 0#32 ↔ h.val = 0 := by
  have := h.isLt
  constructor
  · intro e
    have e' := congrArg BitVec.toNat e
    simp only [BitVec.toNat_ofNat] at e'
    omega
  · intro e; rw [e]

/-- and the word 255 exactly when it is 255. -/
theorem ofNat_eq_255_iff (h : Fin 256) : BitVec.ofNat 32 h.val = 255#32 ↔ h.val = 255 := by
  have := h.isLt
  constructor
  · intro e
    have e' := congrArg BitVec.toNat e
    simp only [BitVec.toNat_ofNat] at e'
    omega
  · intro e; rw [e]

/-- The float pattern of all zeros is the number zero. -/
theorem zero_bits : (Scalar.ofBits (F := Ideal) .f32 0x00000000#32 : EReal) = 0 := by
  show Ideal.ofBits .f32 0x00000000#32 = 0
  simp [Ideal.ofBits, Ideal.ieee]

/-- Two nested choices with the same fallback are one choice on the conjunction. -/
theorem ite_ite {α : Type} (p q : Prop) [Decidable p] [Decidable q] (a z : α) :
    (if q then (if p then a else z) else z) = if p ∧ q then a else z := by
  by_cases hp : p <;> by_cases hq : q <;> simp [hp, hq]

/-! ## A rotation by one, read at an index -/

section Rot
variable {α : Type} {C : ℕ}

/-- Rolling the rows by 1 reads the row one back, around the end. -/
theorem rotRow_back (x : (⟨3, ![C, 256, 256]⟩ : Shape).Idx → α) (hr : (⟨3, ![C, 256, 256]⟩ : Shape).Rotates 1 none)
    (c : Fin C) (h w : Fin 256) :
    dynamicRotate 1 1#32 none x hr (ix3 c h w) = x (ix3 c (moved 0 h) w) :=
  dynamicRotate_apply 1 1#32 x hr (ix3 c h w) (ix3 c (moved 0 h) w) (fun b => by
    match b with
    | ⟨0, _⟩ => rfl
    | ⟨1, _⟩ =>
      show (h.val + 0 + 255) % 256 = (h.val + 256 - 1 % 256) % 256
      omega
    | ⟨2, _⟩ => rfl)

/-- Rolling the rows by 255 reads the row one forward, around the end. -/
theorem rotRow_fwd (x : (⟨3, ![C, 256, 256]⟩ : Shape).Idx → α) (hr : (⟨3, ![C, 256, 256]⟩ : Shape).Rotates 1 none)
    (c : Fin C) (h w : Fin 256) :
    dynamicRotate 1 255#32 none x hr (ix3 c h w) = x (ix3 c (moved 2 h) w) :=
  dynamicRotate_apply 1 255#32 x hr (ix3 c h w) (ix3 c (moved 2 h) w) (fun b => by
    match b with
    | ⟨0, _⟩ => rfl
    | ⟨1, _⟩ =>
      show (h.val + 2 + 255) % 256 = (h.val + 256 - 255 % 256) % 256
      omega
    | ⟨2, _⟩ => rfl)

/-- Rolling the columns by 1 reads the column one back, around the end. -/
theorem rotCol_back (x : (⟨3, ![C, 256, 256]⟩ : Shape).Idx → α) (hr : (⟨3, ![C, 256, 256]⟩ : Shape).Rotates 2 none)
    (c : Fin C) (h w : Fin 256) :
    dynamicRotate 2 1#32 none x hr (ix3 c h w) = x (ix3 c h (moved 0 w)) :=
  dynamicRotate_apply 2 1#32 x hr (ix3 c h w) (ix3 c h (moved 0 w)) (fun b => by
    match b with
    | ⟨0, _⟩ => rfl
    | ⟨1, _⟩ => rfl
    | ⟨2, _⟩ =>
      show (w.val + 0 + 255) % 256 = (w.val + 256 - 1 % 256) % 256
      omega)

/-- Rolling the columns by 255 reads the column one forward, around the end. -/
theorem rotCol_fwd (x : (⟨3, ![C, 256, 256]⟩ : Shape).Idx → α) (hr : (⟨3, ![C, 256, 256]⟩ : Shape).Rotates 2 none)
    (c : Fin C) (h w : Fin 256) :
    dynamicRotate 2 255#32 none x hr (ix3 c h w) = x (ix3 c h (moved 2 w)) :=
  dynamicRotate_apply 2 255#32 x hr (ix3 c h w) (ix3 c h (moved 2 w)) (fun b => by
    match b with
    | ⟨0, _⟩ => rfl
    | ⟨1, _⟩ => rfl
    | ⟨2, _⟩ =>
      show (w.val + 2 + 255) % 256 = (w.val + 256 - 255 % 256) % 256
      omega)

end Rot

/-! ## The border masks, read at an index -/

section Mask
variable {α : Type} {C : ℕ}

/-- Choosing by "the row number is e" is a choice on the row coordinate's word. -/
theorem maskRow_apply (hi : (⟨3, ![C, 256, 256]⟩ : Shape).Iotas .tc 32 [1]) (e : BitVec 32)
    (z y : (⟨3, ![C, 256, 256]⟩ : Shape).Idx → α) (c : Fin C) (h w : Fin 256) :
    select (cmpi .eq (iota .tc ⟨3, ![C, 256, 256]⟩ 32 [1] hi) (broadcast ⟨3, ![C, 256, 256]⟩ e)) z y (ix3 c h w)
      = if BitVec.ofNat 32 h.val = e then z (ix3 c h w) else y (ix3 c h w) := by
  rw [select_apply]
  show Scalar.select (IntOp.cmpi .eq (iota .tc ⟨3, ![C, 256, 256]⟩ 32 [1] hi (ix3 c h w)) e) _ _ = _
  rw [iota_single_apply]
  show Scalar.select (IntOp.cmpi .eq (BitVec.ofNat 32 h.val) e) _ _ = _
  by_cases he : BitVec.ofNat 32 h.val = e
  · rw [if_pos he, IntOp.cmpi_eq.2 he, select_one]
  · rw [if_neg he, eq_zero_of_ne_one (fun hc => he (IntOp.cmpi_eq.1 hc)), select_zero]

/-- Choosing by "the column number is e" is a choice on the column coordinate's word. -/
theorem maskCol_apply (hi : (⟨3, ![C, 256, 256]⟩ : Shape).Iotas .tc 32 [2]) (e : BitVec 32)
    (z y : (⟨3, ![C, 256, 256]⟩ : Shape).Idx → α) (c : Fin C) (h w : Fin 256) :
    select (cmpi .eq (iota .tc ⟨3, ![C, 256, 256]⟩ 32 [2] hi) (broadcast ⟨3, ![C, 256, 256]⟩ e)) z y (ix3 c h w)
      = if BitVec.ofNat 32 w.val = e then z (ix3 c h w) else y (ix3 c h w) := by
  rw [select_apply]
  show Scalar.select (IntOp.cmpi .eq (iota .tc ⟨3, ![C, 256, 256]⟩ 32 [2] hi (ix3 c h w)) e) _ _ = _
  rw [iota_single_apply]
  show Scalar.select (IntOp.cmpi .eq (BitVec.ofNat 32 w.val) e) _ _ = _
  by_cases he : BitVec.ofNat 32 w.val = e
  · rw [if_pos he, IntOp.cmpi_eq.2 he, select_one]
  · rw [if_neg he, eq_zero_of_ne_one (fun hc => he (IntOp.cmpi_eq.1 hc)), select_zero]

end Mask

section MaskInside
variable {α : Type} {C : ℕ}

/-- Zeroing row 0 keeps the rows whose neighbour one back is inside the image. -/
theorem maskRow0 (hi : (⟨3, ![C, 256, 256]⟩ : Shape).Iotas .tc 32 [1])
    (z y : (⟨3, ![C, 256, 256]⟩ : Shape).Idx → α) (c : Fin C) (h w : Fin 256) :
    select (cmpi .eq (iota .tc ⟨3, ![C, 256, 256]⟩ 32 [1] hi) (broadcast ⟨3, ![C, 256, 256]⟩ 0#32)) z y (ix3 c h w)
      = if inside 0 h then y (ix3 c h w) else z (ix3 c h w) := by
  refine (maskRow_apply hi 0#32 z y c h w).trans ?_
  by_cases hh : h.val = 0
  · rw [if_pos ((ofNat_eq_zero_iff h).2 hh), if_neg (fun hc => (inside_zero_iff h).1 hc hh)]
  · rw [if_neg (fun hc => hh ((ofNat_eq_zero_iff h).1 hc)), if_pos ((inside_zero_iff h).2 hh)]

/-- Zeroing row 255 keeps the rows whose neighbour one forward is inside the image. -/
theorem maskRow255 (hi : (⟨3, ![C, 256, 256]⟩ : Shape).Iotas .tc 32 [1])
    (z y : (⟨3, ![C, 256, 256]⟩ : Shape).Idx → α) (c : Fin C) (h w : Fin 256) :
    select (cmpi .eq (iota .tc ⟨3, ![C, 256, 256]⟩ 32 [1] hi) (broadcast ⟨3, ![C, 256, 256]⟩ 255#32)) z y (ix3 c h w)
      = if inside 2 h then y (ix3 c h w) else z (ix3 c h w) := by
  refine (maskRow_apply hi 255#32 z y c h w).trans ?_
  by_cases hh : h.val = 255
  · rw [if_pos ((ofNat_eq_255_iff h).2 hh), if_neg (fun hc => (inside_two_iff h).1 hc hh)]
  · rw [if_neg (fun hc => hh ((ofNat_eq_255_iff h).1 hc)), if_pos ((inside_two_iff h).2 hh)]

/-- Zeroing column 0 keeps the columns whose neighbour one back is inside the image. -/
theorem maskCol0 (hi : (⟨3, ![C, 256, 256]⟩ : Shape).Iotas .tc 32 [2])
    (z y : (⟨3, ![C, 256, 256]⟩ : Shape).Idx → α) (c : Fin C) (h w : Fin 256) :
    select (cmpi .eq (iota .tc ⟨3, ![C, 256, 256]⟩ 32 [2] hi) (broadcast ⟨3, ![C, 256, 256]⟩ 0#32)) z y (ix3 c h w)
      = if inside 0 w then y (ix3 c h w) else z (ix3 c h w) := by
  refine (maskCol_apply hi 0#32 z y c h w).trans ?_
  by_cases hh : w.val = 0
  · rw [if_pos ((ofNat_eq_zero_iff w).2 hh), if_neg (fun hc => (inside_zero_iff w).1 hc hh)]
  · rw [if_neg (fun hc => hh ((ofNat_eq_zero_iff w).1 hc)), if_pos ((inside_zero_iff w).2 hh)]

/-- Zeroing column 255 keeps the columns whose neighbour one forward is inside the image. -/
theorem maskCol255 (hi : (⟨3, ![C, 256, 256]⟩ : Shape).Iotas .tc 32 [2])
    (z y : (⟨3, ![C, 256, 256]⟩ : Shape).Idx → α) (c : Fin C) (h w : Fin 256) :
    select (cmpi .eq (iota .tc ⟨3, ![C, 256, 256]⟩ 32 [2] hi) (broadcast ⟨3, ![C, 256, 256]⟩ 255#32)) z y (ix3 c h w)
      = if inside 2 w then y (ix3 c h w) else z (ix3 c h w) := by
  refine (maskCol_apply hi 255#32 z y c h w).trans ?_
  by_cases hh : w.val = 255
  · rw [if_pos ((ofNat_eq_255_iff w).2 hh), if_neg (fun hc => (inside_two_iff w).1 hc hh)]
  · rw [if_neg (fun hc => hh ((ofNat_eq_255_iff w).1 hc)), if_pos ((inside_two_iff w).2 hh)]

end MaskInside

/-! ## The sum of squares over the channels, and what is stored of it -/

section Tail
variable {C : ℕ}

/-- The sum over axis 0 of the squares of a [C, 256, 256] array, read at a pixel, is the sum over the channels. -/
theorem sumSq_apply (d : FVec Ideal ⟨3, ![C, 256, 256]⟩ .f32)
    (hred : (⟨3, ![C, 256, 256]⟩ : Shape).Reduces [0] ⟨2, ![256, 256]⟩) (hφ : FKind.Formats .f32)
    (hacc : (0x00000000#32 : BitVec 32) = 0x00000000#32) (h w : Fin 256) :
    multiReduction .add [0] ⟨2, ![256, 256]⟩ (mulf d d) 0x00000000#32 hred hφ hacc (ix2 h w)
      = ∑ c : Fin C, d (ix3 c h w) * d (ix3 c h w) := by
  refine (Ideal.multiReduction_add_single (mulf d d) 0x00000000#32 hred hφ hacc (ix2 h w)).trans ?_
  show ∑ c : Fin C, mulf d d (hred.lift (ix2 h w) c) = _
  refine Finset.sum_congr rfl fun c _ => ?_
  have e : hred.lift (ix2 h w) c = ix3 c h w := by
    funext a
    match a with
    | ⟨0, _⟩ => rfl
    | ⟨1, _⟩ => rfl
    | ⟨2, _⟩ => rfl
  rw [e]; rfl

end Tail

section Stored
variable {C : ℕ}

/-- A [256, 256] array viewed [1, 1, 256, 256] reads, at (0, 0, h, w), the array at (h, w). -/
theorem cast11_apply {α : Type} (x : (⟨2, ![256, 256]⟩ : Shape).Idx → α)
    (hsc : (⟨2, ![256, 256]⟩ : Shape).ShapeCasts ⟨4, ![1, 1, 256, 256]⟩) (h w : Fin 256) :
    shapeCast ⟨4, ![1, 1, 256, 256]⟩ x hsc (ix4 (0 : Fin 1) (0 : Fin 1) h w) = x (ix2 h w) :=
  shapeCast_apply x hsc _ _ (by
    rw [Shape.rowMajor_val_two, Shape.rowMajor_val_four]
    show h.val * 256 + w.val = ((0 * 1 + 0) * 256 + h.val) * 256 + w.val
    omega)

/-- What a plane of the first half stores at a pixel: exp(−1 · √(the sum over the channels of the squares)). -/
theorem storedW_apply (d : FVec Ideal ⟨3, ![C, 256, 256]⟩ .f32)
    (hred : (⟨3, ![C, 256, 256]⟩ : Shape).Reduces [0] ⟨2, ![256, 256]⟩) (hφ : FKind.Formats .f32)
    (hacc : (0x00000000#32 : BitVec 32) = 0x00000000#32)
    (hsc : (⟨2, ![256, 256]⟩ : Shape).ShapeCasts ⟨4, ![1, 1, 256, 256]⟩) (h w : Fin 256) :
    shapeCast ⟨4, ![1, 1, 256, 256]⟩
      (exp (mulf (broadcast ⟨2, ![256, 256]⟩ (Scalar.ofBits (F := Ideal) .f32 0xBF800000#32))
        (sqrt (multiReduction .add [0] ⟨2, ![256, 256]⟩ (mulf d d) 0x00000000#32 hred hφ hacc)))) hsc
      (ix4 (0 : Fin 1) (0 : Fin 1) h w)
      = Ideal.exp (Ideal.ofBits .f32 0xBF800000#32 * Ideal.sqrt (∑ c : Fin C, d (ix3 c h w) * d (ix3 c h w))) := by
  refine (cast11_apply _ hsc h w).trans ?_
  show Ideal.exp (Ideal.ofBits .f32 0xBF800000#32
    * Ideal.sqrt (multiReduction .add [0] ⟨2, ![256, 256]⟩ (mulf d d) 0x00000000#32 hred hφ hacc (ix2 h w))) = _
  rw [sumSq_apply d hred hφ hacc h w]

/-- What a plane of the second half stores at a pixel: √(the sum over the channels of the squares). -/
theorem storedV_apply (d : FVec Ideal ⟨3, ![C, 256, 256]⟩ .f32)
    (hred : (⟨3, ![C, 256, 256]⟩ : Shape).Reduces [0] ⟨2, ![256, 256]⟩) (hφ : FKind.Formats .f32)
    (hacc : (0x00000000#32 : BitVec 32) = 0x00000000#32)
    (hsc : (⟨2, ![256, 256]⟩ : Shape).ShapeCasts ⟨4, ![1, 1, 256, 256]⟩) (h w : Fin 256) :
    shapeCast ⟨4, ![1, 1, 256, 256]⟩
      (sqrt (multiReduction .add [0] ⟨2, ![256, 256]⟩ (mulf d d) 0x00000000#32 hred hφ hacc)) hsc
      (ix4 (0 : Fin 1) (0 : Fin 1) h w)
      = Ideal.sqrt (∑ c : Fin C, d (ix3 c h w) * d (ix3 c h w)) := by
  refine (cast11_apply _ hsc h w).trans ?_
  show Ideal.sqrt (multiReduction .add [0] ⟨2, ![256, 256]⟩ (mulf d d) 0x00000000#32 hred hφ hacc (ix2 h w)) = _
  rw [sumSq_apply d hred hφ hacc h w]

/-- The sum over the channels of the squared differences between a block [1, C, 256, 256] viewed [C, 256, 256]
    and an array that holds, at the pixel, the block's neighbour at the offset (zero outside the image) is the
    specification's squared distance. -/
theorem sumSq_eq_dist2 (v : (⟨4, ![1, C, 256, 256]⟩ : Shape).Idx → EReal)
    (hc : (⟨4, ![1, C, 256, 256]⟩ : Shape).ShapeCasts ⟨3, ![C, 256, 256]⟩)
    (nb : FVec Ideal ⟨3, ![C, 256, 256]⟩ .f32) (oy ox : ℕ) (h w : Fin 256)
    (hnb : ∀ c : Fin C, nb (ix3 c h w)
      = if inside oy h ∧ inside ox w then shapeCast ⟨3, ![C, 256, 256]⟩ v hc (ix3 c (moved oy h) (moved ox w)) else 0) :
    (∑ c : Fin C, subf (shapeCast ⟨3, ![C, 256, 256]⟩ v hc) nb (ix3 c h w) * subf (shapeCast ⟨3, ![C, 256, 256]⟩ v hc) nb (ix3 c h w))
      = dist2 v oy ox (0 : Fin 1) h w := by
  unfold dist2 nbr
  refine Finset.sum_congr rfl fun c _ => ?_
  have e : subf (shapeCast ⟨3, ![C, 256, 256]⟩ v hc) nb (ix3 c h w)
      = v (ix4 (0 : Fin 1) c h w) - (if inside oy h ∧ inside ox w then v (ix4 (0 : Fin 1) c (moved oy h) (moved ox w)) else 0) := by
    rw [subf_apply, hnb c, shapeCast_1abc_abc_apply v hc c h w, shapeCast_1abc_abc_apply v hc c (moved oy h) (moved ox w)]
  rw [e]

end Stored

/-! ## The eight neighbour arrays -/

section Nbr
variable {C : ℕ}

/-- The neighbour array of the window offset (0, 0) — the row one back, the column one back, the wrapped border zeroed —
    holds at a pixel the specification's neighbour: the moved pixel inside the image, zero outside. -/
theorem nbr00 (x : FVec Ideal (⟨3, ![C, 256, 256]⟩ : Shape) .f32) (hr1 : (⟨3, ![C, 256, 256]⟩ : Shape).Rotates 1 none) (hr2 : (⟨3, ![C, 256, 256]⟩ : Shape).Rotates 2 none) (hi1 : (⟨3, ![C, 256, 256]⟩ : Shape).Iotas .tc 32 [1]) (hi2 : (⟨3, ![C, 256, 256]⟩ : Shape).Iotas .tc 32 [2])
    (c : Fin C) (h w : Fin 256) :
    (select (cmpi .eq (iota .tc (⟨3, ![C, 256, 256]⟩ : Shape) 32 [2] hi2) (broadcast (⟨3, ![C, 256, 256]⟩ : Shape) 0#32)) (broadcast (⟨3, ![C, 256, 256]⟩ : Shape) (Scalar.ofBits (F := Ideal) .f32 0x00000000#32))
      (select (cmpi .eq (iota .tc (⟨3, ![C, 256, 256]⟩ : Shape) 32 [1] hi1) (broadcast (⟨3, ![C, 256, 256]⟩ : Shape) 0#32)) (broadcast (⟨3, ![C, 256, 256]⟩ : Shape) (Scalar.ofBits (F := Ideal) .f32 0x00000000#32))
        (dynamicRotate 2 1#32 none (dynamicRotate 1 1#32 none x hr1) hr2))) (ix3 c h w)
      = if inside 0 h ∧ inside 0 w then x (ix3 c (moved 0 h) (moved 0 w)) else 0 := by
  rw [maskCol0 hi2 _ _ c h w, maskRow0 hi1 _ _ c h w, rotCol_back _ hr2 c h w, rotRow_back x hr1 c h (moved 0 w), broadcast_apply, zero_bits]
  exact ite_ite _ _ _ _

/-- The neighbour array of the window offset (0, 1) — the row one back, the column the same, the wrapped border zeroed —
    holds at a pixel the specification's neighbour: the moved pixel inside the image, zero outside. -/
theorem nbr01 (x : FVec Ideal (⟨3, ![C, 256, 256]⟩ : Shape) .f32) (hr1 : (⟨3, ![C, 256, 256]⟩ : Shape).Rotates 1 none) (hi1 : (⟨3, ![C, 256, 256]⟩ : Shape).Iotas .tc 32 [1])
    (c : Fin C) (h w : Fin 256) :
    (select (cmpi .eq (iota .tc (⟨3, ![C, 256, 256]⟩ : Shape) 32 [1] hi1) (broadcast (⟨3, ![C, 256, 256]⟩ : Shape) 0#32)) (broadcast (⟨3, ![C, 256, 256]⟩ : Shape) (Scalar.ofBits (F := Ideal) .f32 0x00000000#32))
        (dynamicRotate 1 1#32 none x hr1)) (ix3 c h w)
      = if inside 0 h ∧ inside 1 w then x (ix3 c (moved 0 h) (moved 1 w)) else 0 := by
  rw [maskRow0 hi1 _ _ c h w, rotRow_back x hr1 c h w, broadcast_apply, zero_bits]
  simp only [moved_one, inside_one, and_true]

/-- The neighbour array of the window offset (0, 2) — the row one back, the column one forward, the wrapped border zeroed —
    holds at a pixel the specification's neighbour: the moved pixel inside the image, zero outside. -/
theorem nbr02 (x : FVec Ideal (⟨3, ![C, 256, 256]⟩ : Shape) .f32) (hr1 : (⟨3, ![C, 256, 256]⟩ : Shape).Rotates 1 none) (hr2 : (⟨3, ![C, 256, 256]⟩ : Shape).Rotates 2 none) (hi1 : (⟨3, ![C, 256, 256]⟩ : Shape).Iotas .tc 32 [1]) (hi2 : (⟨3, ![C, 256, 256]⟩ : Shape).Iotas .tc 32 [2])
    (c : Fin C) (h w : Fin 256) :
    (select (cmpi .eq (iota .tc (⟨3, ![C, 256, 256]⟩ : Shape) 32 [2] hi2) (broadcast (⟨3, ![C, 256, 256]⟩ : Shape) 255#32)) (broadcast (⟨3, ![C, 256, 256]⟩ : Shape) (Scalar.ofBits (F := Ideal) .f32 0x00000000#32))
      (select (cmpi .eq (iota .tc (⟨3, ![C, 256, 256]⟩ : Shape) 32 [1] hi1) (broadcast (⟨3, ![C, 256, 256]⟩ : Shape) 0#32)) (broadcast (⟨3, ![C, 256, 256]⟩ : Shape) (Scalar.ofBits (F := Ideal) .f32 0x00000000#32))
        (dynamicRotate 2 255#32 none (dynamicRotate 1 1#32 none x hr1) hr2))) (ix3 c h w)
      = if inside 0 h ∧ inside 2 w then x (ix3 c (moved 0 h) (moved 2 w)) else 0 := by
  rw [maskCol255 hi2 _ _ c h w, maskRow0 hi1 _ _ c h w, rotCol_fwd _ hr2 c h w, rotRow_back x hr1 c h (moved 2 w), broadcast_apply, zero_bits]
  exact ite_ite _ _ _ _

/-- The neighbour array of the window offset (1, 0) — the row the same, the column one back, the wrapped border zeroed —
    holds at a pixel the specification's neighbour: the moved pixel inside the image, zero outside. -/
theorem nbr10 (x : FVec Ideal (⟨3, ![C, 256, 256]⟩ : Shape) .f32) (hr2 : (⟨3, ![C, 256, 256]⟩ : Shape).Rotates 2 none) (hi2 : (⟨3, ![C, 256, 256]⟩ : Shape).Iotas .tc 32 [2])
    (c : Fin C) (h w : Fin 256) :
    (select (cmpi .eq (iota .tc (⟨3, ![C, 256, 256]⟩ : Shape) 32 [2] hi2) (broadcast (⟨3, ![C, 256, 256]⟩ : Shape) 0#32)) (broadcast (⟨3, ![C, 256, 256]⟩ : Shape) (Scalar.ofBits (F := Ideal) .f32 0x00000000#32))
      (dynamicRotate 2 1#32 none x hr2)) (ix3 c h w)
      = if inside 1 h ∧ inside 0 w then x (ix3 c (moved 1 h) (moved 0 w)) else 0 := by
  rw [maskCol0 hi2 _ _ c h w, rotCol_back _ hr2 c h w, broadcast_apply, zero_bits]
  simp only [moved_one, inside_one, true_and]

/-- The neighbour array of the window offset (1, 2) — the row the same, the column one forward, the wrapped border zeroed —
    holds at a pixel the specification's neighbour: the moved pixel inside the image, zero outside. -/
theorem nbr12 (x : FVec Ideal (⟨3, ![C, 256, 256]⟩ : Shape) .f32) (hr2 : (⟨3, ![C, 256, 256]⟩ : Shape).Rotates 2 none) (hi2 : (⟨3, ![C, 256, 256]⟩ : Shape).Iotas .tc 32 [2])
    (c : Fin C) (h w : Fin 256) :
    (select (cmpi .eq (iota .tc (⟨3, ![C, 256, 256]⟩ : Shape) 32 [2] hi2) (broadcast (⟨3, ![C, 256, 256]⟩ : Shape) 255#32)) (broadcast (⟨3, ![C, 256, 256]⟩ : Shape) (Scalar.ofBits (F := Ideal) .f32 0x00000000#32))
      (dynamicRotate 2 255#32 none x hr2)) (ix3 c h w)
      = if inside 1 h ∧ inside 2 w then x (ix3 c (moved 1 h) (moved 2 w)) else 0 := by
  rw [maskCol255 hi2 _ _ c h w, rotCol_fwd _ hr2 c h w, broadcast_apply, zero_bits]
  simp only [moved_one, inside_one, true_and]

/-- The neighbour array of the window offset (2, 0) — the row one forward, the column one back, the wrapped border zeroed —
    holds at a pixel the specification's neighbour: the moved pixel inside the image, zero outside. -/
theorem nbr20 (x : FVec Ideal (⟨3, ![C, 256, 256]⟩ : Shape) .f32) (hr1 : (⟨3, ![C, 256, 256]⟩ : Shape).Rotates 1 none) (hr2 : (⟨3, ![C, 256, 256]⟩ : Shape).Rotates 2 none) (hi1 : (⟨3, ![C, 256, 256]⟩ : Shape).Iotas .tc 32 [1]) (hi2 : (⟨3, ![C, 256, 256]⟩ : Shape).Iotas .tc 32 [2])
    (c : Fin C) (h w : Fin 256) :
    (select (cmpi .eq (iota .tc (⟨3, ![C, 256, 256]⟩ : Shape) 32 [2] hi2) (broadcast (⟨3, ![C, 256, 256]⟩ : Shape) 0#32)) (broadcast (⟨3, ![C, 256, 256]⟩ : Shape) (Scalar.ofBits (F := Ideal) .f32 0x00000000#32))
      (select (cmpi .eq (iota .tc (⟨3, ![C, 256, 256]⟩ : Shape) 32 [1] hi1) (broadcast (⟨3, ![C, 256, 256]⟩ : Shape) 255#32)) (broadcast (⟨3, ![C, 256, 256]⟩ : Shape) (Scalar.ofBits (F := Ideal) .f32 0x00000000#32))
        (dynamicRotate 2 1#32 none (dynamicRotate 1 255#32 none x hr1) hr2))) (ix3 c h w)
      = if inside 2 h ∧ inside 0 w then x (ix3 c (moved 2 h) (moved 0 w)) else 0 := by
  rw [maskCol0 hi2 _ _ c h w, maskRow255 hi1 _ _ c h w, rotCol_back _ hr2 c h w, rotRow_fwd x hr1 c h (moved 0 w), broadcast_apply, zero_bits]
  exact ite_ite _ _ _ _

/-- The neighbour array of the window offset (2, 1) — the row one forward, the column the same, the wrapped border zeroed —
    holds at a pixel the specification's neighbour: the moved pixel inside the image, zero outside. -/
theorem nbr21 (x : FVec Ideal (⟨3, ![C, 256, 256]⟩ : Shape) .f32) (hr1 : (⟨3, ![C, 256, 256]⟩ : Shape).Rotates 1 none) (hi1 : (⟨3, ![C, 256, 256]⟩ : Shape).Iotas .tc 32 [1])
    (c : Fin C) (h w : Fin 256) :
    (select (cmpi .eq (iota .tc (⟨3, ![C, 256, 256]⟩ : Shape) 32 [1] hi1) (broadcast (⟨3, ![C, 256, 256]⟩ : Shape) 255#32)) (broadcast (⟨3, ![C, 256, 256]⟩ : Shape) (Scalar.ofBits (F := Ideal) .f32 0x00000000#32))
        (dynamicRotate 1 255#32 none x hr1)) (ix3 c h w)
      = if inside 2 h ∧ inside 1 w then x (ix3 c (moved 2 h) (moved 1 w)) else 0 := by
  rw [maskRow255 hi1 _ _ c h w, rotRow_fwd x hr1 c h w, broadcast_apply, zero_bits]
  simp only [moved_one, inside_one, and_true]

/-- The neighbour array of the window offset (2, 2) — the row one forward, the column one forward, the wrapped border zeroed —
    holds at a pixel the specification's neighbour: the moved pixel inside the image, zero outside. -/
theorem nbr22 (x : FVec Ideal (⟨3, ![C, 256, 256]⟩ : Shape) .f32) (hr1 : (⟨3, ![C, 256, 256]⟩ : Shape).Rotates 1 none) (hr2 : (⟨3, ![C, 256, 256]⟩ : Shape).Rotates 2 none) (hi1 : (⟨3, ![C, 256, 256]⟩ : Shape).Iotas .tc 32 [1]) (hi2 : (⟨3, ![C, 256, 256]⟩ : Shape).Iotas .tc 32 [2])
    (c : Fin C) (h w : Fin 256) :
    (select (cmpi .eq (iota .tc (⟨3, ![C, 256, 256]⟩ : Shape) 32 [2] hi2) (broadcast (⟨3, ![C, 256, 256]⟩ : Shape) 255#32)) (broadcast (⟨3, ![C, 256, 256]⟩ : Shape) (Scalar.ofBits (F := Ideal) .f32 0x00000000#32))
      (select (cmpi .eq (iota .tc (⟨3, ![C, 256, 256]⟩ : Shape) 32 [1] hi1) (broadcast (⟨3, ![C, 256, 256]⟩ : Shape) 255#32)) (broadcast (⟨3, ![C, 256, 256]⟩ : Shape) (Scalar.ofBits (F := Ideal) .f32 0x00000000#32))
        (dynamicRotate 2 255#32 none (dynamicRotate 1 255#32 none x hr1) hr2))) (ix3 c h w)
      = if inside 2 h ∧ inside 2 w then x (ix3 c (moved 2 h) (moved 2 w)) else 0 := by
  rw [maskCol255 hi2 _ _ c h w, maskRow255 hi1 _ _ c h w, rotCol_fwd _ hr2 c h w, rotRow_fwd x hr1 c h (moved 2 w), broadcast_apply, zero_bits]
  exact ite_ite _ _ _ _

end Nbr

/-! ## A whole plane -/

section Plane
variable {C : ℕ}

/-- A plane of the first half: the stored value at a pixel is exp(−1 · √dist2) at the plane's offset, once the
    neighbour array is known to hold the specification's neighbour at that pixel. -/
theorem planeW (v : (⟨4, ![1, C, 256, 256]⟩ : Shape).Idx → EReal)
    (hc : (⟨4, ![1, C, 256, 256]⟩ : Shape).ShapeCasts ⟨3, ![C, 256, 256]⟩)
    (nb : FVec Ideal ⟨3, ![C, 256, 256]⟩ .f32) (oy ox : ℕ) (h w : Fin 256)
    (hnb : ∀ c : Fin C, nb (ix3 c h w)
      = if inside oy h ∧ inside ox w then shapeCast ⟨3, ![C, 256, 256]⟩ v hc (ix3 c (moved oy h) (moved ox w)) else 0)
    (hred : (⟨3, ![C, 256, 256]⟩ : Shape).Reduces [0] ⟨2, ![256, 256]⟩) (hφ : FKind.Formats .f32)
    (hacc : (0x00000000#32 : BitVec 32) = 0x00000000#32)
    (hsc : (⟨2, ![256, 256]⟩ : Shape).ShapeCasts ⟨4, ![1, 1, 256, 256]⟩) :
    shapeCast ⟨4, ![1, 1, 256, 256]⟩
      (exp (mulf (broadcast ⟨2, ![256, 256]⟩ (Scalar.ofBits (F := Ideal) .f32 0xBF800000#32))
        (sqrt (multiReduction .add [0] ⟨2, ![256, 256]⟩
          (mulf (subf (shapeCast ⟨3, ![C, 256, 256]⟩ v hc) nb) (subf (shapeCast ⟨3, ![C, 256, 256]⟩ v hc) nb))
          0x00000000#32 hred hφ hacc)))) hsc
      (ix4 (0 : Fin 1) (0 : Fin 1) h w)
      = Ideal.exp (Ideal.ofBits .f32 0xBF800000#32 * Ideal.sqrt (dist2 v oy ox (0 : Fin 1) h w)) :=
  (storedW_apply _ hred hφ hacc hsc h w).trans (by rw [sumSq_eq_dist2 v hc nb oy ox h w hnb])

/-- A plane of the second half: the stored value at a pixel is √dist2 at the plane's offset. -/
theorem planeV (v : (⟨4, ![1, C, 256, 256]⟩ : Shape).Idx → EReal)
    (hc : (⟨4, ![1, C, 256, 256]⟩ : Shape).ShapeCasts ⟨3, ![C, 256, 256]⟩)
    (nb : FVec Ideal ⟨3, ![C, 256, 256]⟩ .f32) (oy ox : ℕ) (h w : Fin 256)
    (hnb : ∀ c : Fin C, nb (ix3 c h w)
      = if inside oy h ∧ inside ox w then shapeCast ⟨3, ![C, 256, 256]⟩ v hc (ix3 c (moved oy h) (moved ox w)) else 0)
    (hred : (⟨3, ![C, 256, 256]⟩ : Shape).Reduces [0] ⟨2, ![256, 256]⟩) (hφ : FKind.Formats .f32)
    (hacc : (0x00000000#32 : BitVec 32) = 0x00000000#32)
    (hsc : (⟨2, ![256, 256]⟩ : Shape).ShapeCasts ⟨4, ![1, 1, 256, 256]⟩) :
    shapeCast ⟨4, ![1, 1, 256, 256]⟩
      (sqrt (multiReduction .add [0] ⟨2, ![256, 256]⟩
        (mulf (subf (shapeCast ⟨3, ![C, 256, 256]⟩ v hc) nb) (subf (shapeCast ⟨3, ![C, 256, 256]⟩ v hc) nb))
        0x00000000#32 hred hφ hacc)) hsc
      (ix4 (0 : Fin 1) (0 : Fin 1) h w)
      = Ideal.sqrt (dist2 v oy ox (0 : Fin 1) h w) :=
  (storedV_apply _ hred hφ hacc hsc h w).trans (by rw [sumSq_eq_dist2 v hc nb oy ox h w hnb])

end Plane

end Cert.Shifts

end
-- ==== Proof.Planes.lean ====
/-
  The sixteen stored planes of the kernel body, each read at a pixel: plane K (K < 8), computed from the first
  image, holds exp(−1 · √dist2) at the K-th window offset, and plane 8 + K, computed from the second image, holds
  √dist2 at the same offset. The offsets in row-major order with the centre left out are
  (0,0), (0,1), (0,2), (1,0), (1,2), (2,0), (2,1), (2,2); offset 0 on an axis is the neighbour one back (a roll by 1,
  zeroed where the coordinate is 0), 2 the neighbour one forward (a roll by 255, zeroed where the coordinate is 255),
  1 leaves the axis alone. Each plane is its neighbour array (Shifts: nbr00 … nbr22) put through the common tail
  (Shifts: planeW, planeV).
-/
import proofs.«103307_j44281112822069_1_alg».proof.Proof.Spec
import proofs.«103307_j44281112822069_1_alg».proof.Proof.Shifts
import proofs.«103307_j44281112822069_1_alg».proof.Proof.Gen.KernelIdeal.Skeleton

noncomputable section

namespace Cert.Planes

open Cert.KernelIdeal Cert.KernelIdeal.Gen Idealize.ShloMosaic Idealize.ShloMosaic.ValueIdx Cert.Shifts

/-! ## Offset (0, 0): the row one back, the column one back -/

theorem plane0 (v0 : Vec Ideal S1x3x256x256 .f32) (h w : Fin 256) :
    k0_pay5 (F := Ideal) v0 (ix4 (0 : Fin 1) (0 : Fin 1) h w) = Cert.Spec.simW v0 (0 : Fin 1) (0 : Fin 8) h w := by
  unfold k0_pay5 k0_pay3
  exact planeW v0 _ _ 0 0 h w (fun c => nbr00 _ _ _ _ _ c h w) _ _ _ _

theorem plane8 (v2 : Vec Ideal S1x6x256x256 .f32) (h w : Fin 256) :
    k0_pay7 (F := Ideal) (k0_pay4 v2) (k0_pay6 v2) (iota .tc S6x256x256 32 [2] iota_S6x256x256_d2_w32)
        (ix4 (0 : Fin 1) (0 : Fin 1) h w)
      = Cert.Spec.simV v2 (0 : Fin 1) (0 : Fin 8) h w := by
  unfold k0_pay7 k0_pay6 k0_pay4
  exact planeV v2 _ _ 0 0 h w (fun c => nbr00 _ _ _ _ _ c h w) _ _ _ _

/-! ## Offset (0, 1): the row one back -/

theorem plane1 (v0 : Vec Ideal S1x3x256x256 .f32) (h w : Fin 256) :
    k0_pay8 (F := Ideal) (k0_pay3 v0) (ix4 (0 : Fin 1) (0 : Fin 1) h w) = Cert.Spec.simW v0 (0 : Fin 1) (1 : Fin 8) h w := by
  unfold k0_pay8 k0_pay3
  exact planeW v0 _ _ 0 1 h w (fun c => nbr01 _ _ _ c h w) _ _ _ _

theorem plane9 (v2 : Vec Ideal S1x6x256x256 .f32) (h w : Fin 256) :
    k0_pay10 (F := Ideal) (k0_pay9 (k0_pay4 v2)) (ix4 (0 : Fin 1) (0 : Fin 1) h w)
      = Cert.Spec.simV v2 (0 : Fin 1) (1 : Fin 8) h w := by
  unfold k0_pay10 k0_pay9 k0_pay4
  exact planeV v2 _ _ 0 1 h w (fun c => nbr01 _ _ _ c h w) _ _ _ _

/-! ## Offset (0, 2): the row one back, the column one forward -/

theorem plane2 (v0 : Vec Ideal S1x3x256x256 .f32) (h w : Fin 256) :
    k0_pay11 (F := Ideal) (k0_pay3 v0) (ix4 (0 : Fin 1) (0 : Fin 1) h w) = Cert.Spec.simW v0 (0 : Fin 1) (2 : Fin 8) h w := by
  unfold k0_pay11 k0_pay3
  exact planeW v0 _ _ 0 2 h w (fun c => nbr02 _ _ _ _ _ c h w) _ _ _ _

theorem plane10 (v2 : Vec Ideal S1x6x256x256 .f32) (h w : Fin 256) :
    k0_pay13 (F := Ideal) (k0_pay4 v2) (k0_pay12 (k0_pay4 v2)) (ix4 (0 : Fin 1) (0 : Fin 1) h w)
      = Cert.Spec.simV v2 (0 : Fin 1) (2 : Fin 8) h w := by
  unfold k0_pay13 k0_pay12 k0_pay4
  exact planeV v2 _ _ 0 2 h w (fun c => nbr02 _ _ _ _ _ c h w) _ _ _ _

/-! ## Offset (1, 0): the column one back -/

theorem plane3 (v0 : Vec Ideal S1x3x256x256 .f32) (h w : Fin 256) :
    k0_pay14 (F := Ideal) (k0_pay3 v0) (ix4 (0 : Fin 1) (0 : Fin 1) h w) = Cert.Spec.simW v0 (0 : Fin 1) (3 : Fin 8) h w := by
  unfold k0_pay14 k0_pay3
  exact planeW v0 _ _ 1 0 h w (fun c => nbr10 _ _ _ c h w) _ _ _ _

theorem plane11 (v2 : Vec Ideal S1x6x256x256 .f32) (h w : Fin 256) :
    k0_pay15 (F := Ideal) (k0_pay4 v2) (ix4 (0 : Fin 1) (0 : Fin 1) h w)
      = Cert.Spec.simV v2 (0 : Fin 1) (3 : Fin 8) h w := by
  unfold k0_pay15 k0_pay4
  exact planeV v2 _ _ 1 0 h w (fun c => nbr10 _ _ _ c h w) _ _ _ _

/-! ## Offset (1, 2): the column one forward -/

theorem plane4 (v0 : Vec Ideal S1x3x256x256 .f32) (h w : Fin 256) :
    k0_pay16 (F := Ideal) (k0_pay3 v0) (ix4 (0 : Fin 1) (0 : Fin 1) h w) = Cert.Spec.simW v0 (0 : Fin 1) (4 : Fin 8) h w := by
  unfold k0_pay16 k0_pay3
  exact planeW v0 _ _ 1 2 h w (fun c => nbr12 _ _ _ c h w) _ _ _ _

theorem plane12 (v2 : Vec Ideal S1x6x256x256 .f32) (h w : Fin 256) :
    k0_pay17 (F := Ideal) (k0_pay4 v2) (ix4 (0 : Fin 1) (0 : Fin 1) h w)
      = Cert.Spec.simV v2 (0 : Fin 1) (4 : Fin 8) h w := by
  unfold k0_pay17 k0_pay4
  exact planeV v2 _ _ 1 2 h w (fun c => nbr12 _ _ _ c h w) _ _ _ _

/-! ## Offset (2, 0): the row one forward, the column one back -/

theorem plane5 (v0 : Vec Ideal S1x3x256x256 .f32) (h w : Fin 256) :
    k0_pay19 (F := Ideal) (k0_pay3 v0) (k0_pay18 (k0_pay3 v0)) (ix4 (0 : Fin 1) (0 : Fin 1) h w)
      = Cert.Spec.simW v0 (0 : Fin 1) (5 : Fin 8) h w := by
  unfold k0_pay19 k0_pay18 k0_pay3
  exact planeW v0 _ _ 2 0 h w (fun c => nbr20 _ _ _ _ _ c h w) _ _ _ _

theorem plane13 (v2 : Vec Ideal S1x6x256x256 .f32) (h w : Fin 256) :
    k0_pay20 (F := Ideal) (k0_pay4 v2) (ix4 (0 : Fin 1) (0 : Fin 1) h w)
      = Cert.Spec.simV v2 (0 : Fin 1) (5 : Fin 8) h w := by
  unfold k0_pay20 k0_pay4
  exact planeV v2 _ _ 2 0 h w (fun c => nbr20 _ _ _ _ _ c h w) _ _ _ _

/-! ## Offset (2, 1): the row one forward -/

theorem plane6 (v0 : Vec Ideal S1x3x256x256 .f32) (h w : Fin 256) :
    k0_pay23 (F := Ideal) (k0_pay3 v0) (k0_pay21 (k0_pay3 v0)) (iota .tc S3x256x256 32 [1] iota_S3x256x256_d1_w32) k0_pay22
        (ix4 (0 : Fin 1) (0 : Fin 1) h w)
      = Cert.Spec.simW v0 (0 : Fin 1) (6 : Fin 8) h w := by
  unfold k0_pay23 k0_pay21 k0_pay22 k0_pay3
  exact planeW v0 _ _ 2 1 h w (fun c => nbr21 _ _ _ c h w) _ _ _ _

theorem plane14 (v2 : Vec Ideal S1x6x256x256 .f32) (h w : Fin 256) :
    k0_pay24 (F := Ideal) (k0_pay4 v2) (ix4 (0 : Fin 1) (0 : Fin 1) h w)
      = Cert.Spec.simV v2 (0 : Fin 1) (6 : Fin 8) h w := by
  unfold k0_pay24 k0_pay4
  exact planeV v2 _ _ 2 1 h w (fun c => nbr21 _ _ _ c h w) _ _ _ _

/-! ## Offset (2, 2): the row one forward, the column one forward -/

theorem plane7 (v0 : Vec Ideal S1x3x256x256 .f32) (h w : Fin 256) :
    k0_pay1 (F := Ideal) (k0_pay3 v0) (k0_pay25 (k0_pay3 v0)) k0_pay26 (k0_pay27 (F := Ideal))
        (ix4 (0 : Fin 1) (0 : Fin 1) h w)
      = Cert.Spec.simW v0 (0 : Fin 1) (7 : Fin 8) h w := by
  unfold k0_pay1 k0_pay25 k0_pay26 k0_pay27 k0_pay3
  exact planeW v0 _ _ 2 2 h w (fun c => nbr22 _ _ _ _ _ c h w) _ _ _ _

theorem plane15 (v2 : Vec Ideal S1x6x256x256 .f32) (h w : Fin 256) :
    k0_pay2 (F := Ideal) (k0_pay4 v2) (ix4 (0 : Fin 1) (0 : Fin 1) h w)
      = Cert.Spec.simV v2 (0 : Fin 1) (7 : Fin 8) h w := by
  unfold k0_pay2 k0_pay4
  exact planeV v2 _ _ 2 2 h w (fun c => nbr22 _ _ _ _ _ c h w) _ _ _ _

end Cert.Planes

end
-- ==== Proof.KernelArray.lean ====
/-
  The kernel's first result as one array. Each grid point `t` (one batch entry) stages batch entry `t` of the two
  images, runs the body, and writes the sixteen planes back as batch entry `t` of the result; the sixteen batch
  entries tile the result. So, once the body's result on any pair of blocks is known to be the specification's maps of
  those blocks (`BlockSpec`), the result array is the specification's maps of the two argument arrays.
-/
import proofs.«103307_j44281112822069_1_alg».proof.Proof.Gen.KernelIdeal.Frame
import proofs.«103307_j44281112822069_1_alg».proof.Proof.Spec
import Idealize.ShloMosaic.Lib.Pipeline.Value

set_option maxRecDepth 16384

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (m : (ℓ : Loc nD τ sig) → Buf (Elt Ideal) ℓ) (ρ : Dev nD → PrngReg)

/-- What the body leaves in the output block, for any two input blocks, is the specification's maps of the blocks. -/
def BlockSpec : Prop :=
  ∀ (x0 : Vec Ideal S1x3x256x256 .f32) (x1 : Vec Ideal S1x6x256x256 .f32), out0_2 (F := Ideal) x0 x1 = simMaps x0 x1

/-- The three index maps, decided over the sixteen grid points: point `t` works on batch entry `t`, whole planes. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- What point `t` writes back is batch entry `t` of the specification's maps of the argument arrays. -/
theorem flushed_eq (hblk : BlockSpec) (c : Dev nD) (t : Fin cfg0.N) :
    (dats m 0 c).flushed 2 t = ((cfg0.win 2).blk t).view.read (Elt Ideal) (simMaps (V m c main_arg0) (V m c main_arg1)) := by
  show (cfg0.win 2).cut (grid0.coords t) ((dats m 0 c).after 2 t) = _
  rw [after0_2, hblk]
  obtain ⟨a0, a1, a2, a3, b0, b1, b2, b3, c0, c1, c2, c3⟩ := idx_facts t
  have ht : t.val < 16 := t.isLt
  funext j
  obtain ⟨j0, k, h, w, rfl⟩ : ∃ (j0 : Fin 1) (k : Fin 16) (h w : Fin 256), j = ix4 j0 k h w := ⟨j 0, j 1, j 2, j 3, eq_ix4 j⟩
  show simMaps (iblk m c 0 t) (iblk m c 1 t) (ix4 j0 k h w)
    = simMaps (V m c main_arg0) (V m c main_arg1) (((cfg0.win 2).blk t).view.emb (ix4 j0 k h w))
  have he : ((cfg0.win 2).blk t).view.emb (ix4 j0 k h w) = ix4 (⟨t.val, ht⟩ : Fin 16) k h w := by
    funext a; apply Fin.ext
    match a with
    | ⟨0, _⟩ => show win0_2.index t (0 : Fin 4) * 1 + 1 * j0.val = t.val; have := j0.isLt; omega
    | ⟨1, _⟩ => show win0_2.index t (1 : Fin 4) * 16 + 1 * k.val = k.val; omega
    | ⟨2, _⟩ => show win0_2.index t (2 : Fin 4) * 256 + 1 * h.val = h.val; omega
    | ⟨3, _⟩ => show win0_2.index t (3 : Fin 4) * 256 + 1 * w.val = w.val; omega
  rw [he]
  refine simMaps_congr _ _ _ _ j0 ⟨t.val, ht⟩ (fun c' h' w' => ?_) (fun c' h' w' => ?_) k h w
  · show V m c main_arg0 (((cfg0.win 0).blk t).view.emb (ix4 j0 c' h' w')) = V m c main_arg0 (ix4 (⟨t.val, ht⟩ : Fin 16) c' h' w')
    refine congrArg (V m c main_arg0) (funext fun a => Fin.ext ?_)
    match a with
    | ⟨0, _⟩ => show win0_0.index t (0 : Fin 4) * 1 + 1 * j0.val = t.val; have := j0.isLt; omega
    | ⟨1, _⟩ => show win0_0.index t (1 : Fin 4) * 3 + 1 * c'.val = c'.val; omega
    | ⟨2, _⟩ => show win0_0.index t (2 : Fin 4) * 256 + 1 * h'.val = h'.val; omega
    | ⟨3, _⟩ => show win0_0.index t (3 : Fin 4) * 256 + 1 * w'.val = w'.val; omega
  · show V m c main_arg1 (((cfg0.win 1).blk t).view.emb (ix4 j0 c' h' w')) = V m c main_arg1 (ix4 (⟨t.val, ht⟩ : Fin 16) c' h' w')
    refine congrArg (V m c main_arg1) (funext fun a => Fin.ext ?_)
    match a with
    | ⟨0, _⟩ => show win0_1.index t (0 : Fin 4) * 1 + 1 * j0.val = t.val; have := j0.isLt; omega
    | ⟨1, _⟩ => show win0_1.index t (1 : Fin 4) * 6 + 1 * c'.val = c'.val; omega
    | ⟨2, _⟩ => show win0_1.index t (2 : Fin 4) * 256 + 1 * h'.val = h'.val; omega
    | ⟨3, _⟩ => show win0_1.index t (3 : Fin 4) * 256 + 1 * w'.val = w'.val; omega

/-- An index of the result array is in point `t`'s block iff its batch coordinate is `t`. -/
theorem mem_blk (t : Fin cfg0.N) (i : S16x16x256x256.Idx) :
    i ∈ ((cfg0.win 2).blk t).view.set ↔ ∀ a : Fin 4, win0_2.index t a * S1x16x256x256.size a ≤ (i a).val ∧ (i a).val < win0_2.index t a * S1x16x256x256.size a + S1x16x256x256.size a := by
  show i ∈ ((View.whole main_v0).slice (win0_2.rect t)).set ↔ _
  rw [View.set_slice_whole, Rect.mem_set_unit]
  exact Iff.rfl

/-- Every index of the result array is in the block of the point its batch coordinate names. -/
theorem cover (i : S16x16x256x256.Idx) :
    ∃ t : Fin cfg0.N, (cfg0.win 2).flush t = true ∧ i ∈ ((cfg0.win 2).blk t).view.set := by
  have hi0 : (i 0).val < 16 := (i 0).isLt
  have hi1 : (i 1).val < 16 := (i 1).isLt
  have hi2 : (i 2).val < 256 := (i 2).isLt
  have hi3 : (i 3).val < 256 := (i 3).isLt
  refine ⟨⟨(i 0).val, hi0⟩, flush0_2 _, ?_⟩
  obtain ⟨a0, a1, a2, a3, b0, b1, b2, b3, c0, c1, c2, c3⟩ := idx_facts ⟨(i 0).val, hi0⟩
  rw [mem_blk]
  intro a
  match a with
  | ⟨0, _⟩ => show win0_2.index ⟨(i 0).val, hi0⟩ (0 : Fin 4) * 1 ≤ (i 0).val ∧ (i 0).val < win0_2.index ⟨(i 0).val, hi0⟩ (0 : Fin 4) * 1 + 1; simp only at c0; omega
  | ⟨1, _⟩ => show win0_2.index ⟨(i 0).val, hi0⟩ (1 : Fin 4) * 16 ≤ (i 1).val ∧ (i 1).val < win0_2.index ⟨(i 0).val, hi0⟩ (1 : Fin 4) * 16 + 16; omega
  | ⟨2, _⟩ => show win0_2.index ⟨(i 0).val, hi0⟩ (2 : Fin 4) * 256 ≤ (i 2).val ∧ (i 2).val < win0_2.index ⟨(i 0).val, hi0⟩ (2 : Fin 4) * 256 + 256; omega
  | ⟨3, _⟩ => show win0_2.index ⟨(i 0).val, hi0⟩ (3 : Fin 4) * 256 ≤ (i 3).val ∧ (i 3).val < win0_2.index ⟨(i 0).val, hi0⟩ (3 : Fin 4) * 256 + 256; omega

/-- THE RESULT ARRAY after the run: the specification's maps of the two argument arrays. -/
theorem final (hblk : BlockSpec) (c : Dev nD) :
    (dats m 0 c).arrAt 2 cfg0.N = simMaps (m ((c : Thread nD τ).loc main_arg0)) (m ((c : Thread nD τ).loc main_arg1)) :=
  (dats m 0 c).arrAt_eq_of_cover 2 (simMaps (V m c main_arg0) (V m c main_arg1)) (fun t _ => flushed_eq m hblk c t) cover

end Cert.KernelArray

end
-- ==== Proof.Block.lean ====
/-
  What the kernel body leaves in its output block [1, 16, 256, 256]. The body stores sixteen planes, each through the
  rectangle that is one plane of the block; the planes tile the block, and plane `k` holds, pixel by pixel, the
  specification's map `k` of the two input blocks. So the block is the specification's maps of the input blocks.
-/
import proofs.«103307_j44281112822069_1_alg».proof.Proof.Gen.KernelIdeal.Frame
import proofs.«103307_j44281112822069_1_alg».proof.Proof.Spec
import proofs.«103307_j44281112822069_1_alg».proof.Proof.Planes
import proofs.«103307_j44281112822069_1_alg».proof.Proof.KernelArray
import Idealize.ShloMosaic.Lib.Pipeline.Value

set_option maxRecDepth 16384

noncomputable section

namespace Cert.Block

open Cert.KernelIdeal Cert.KernelIdeal.Gen Idealize.ShloMosaic Idealize.ShloMosaic.TcCoe
open Idealize.ShloMosaic.ValueIdx
open Cert.Spec

theorem hz : (![0, 0, 0, 0] : Fin 4 → Nat) = fun _ => 0 := funext fun a => by fin_cases a <;> rfl

/-- The body's result on any two input blocks is the specification's maps of the blocks: every one of its sixteen
    stores writes the plane of the maps that its rectangle names, and the sixteen rectangles cover the block. -/
theorem out_eq : Cert.KernelArray.BlockSpec := by
  intro x0 x1
  funext y
  unfold out0_2
  refine View.canon_apply_of_pieces (Val := Elt Ideal) (e := .f32) (simMaps x0 x1 : S1x16x256x256.Idx → Elt Ideal .f32) _ ?_ y (cover0_2 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · -- the piece stored through plane 15
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_17.emb (ix4 (0 : Fin 1) (0 : Fin 1) h w) = ix4 (0 : Fin 1) (15 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (7 : Fin 8) (15 : Fin 16) rfl h w]
    simp only [View.ld_unit_zero (S := S1x3x256x256) hz, View.ld_unit_zero (S := S1x6x256x256) hz]
    exact Cert.Planes.plane15 x1 h w
  · -- the piece stored through plane 7
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_16.emb (ix4 (0 : Fin 1) (0 : Fin 1) h w) = ix4 (0 : Fin 1) (7 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (7 : Fin 8) (7 : Fin 16) rfl h w]
    simp only [View.ld_unit_zero (S := S1x3x256x256) hz, View.ld_unit_zero (S := S1x6x256x256) hz]
    exact Cert.Planes.plane7 x0 h w
  · -- the piece stored through plane 14
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_15.emb (ix4 (0 : Fin 1) (0 : Fin 1) h w) = ix4 (0 : Fin 1) (14 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (6 : Fin 8) (14 : Fin 16) rfl h w]
    simp only [View.ld_unit_zero (S := S1x3x256x256) hz, View.ld_unit_zero (S := S1x6x256x256) hz]
    exact Cert.Planes.plane14 x1 h w
  · -- the piece stored through plane 6
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_14.emb (ix4 (0 : Fin 1) (0 : Fin 1) h w) = ix4 (0 : Fin 1) (6 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (6 : Fin 8) (6 : Fin 16) rfl h w]
    simp only [View.ld_unit_zero (S := S1x3x256x256) hz, View.ld_unit_zero (S := S1x6x256x256) hz]
    exact Cert.Planes.plane6 x0 h w
  · -- the piece stored through plane 13
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_13.emb (ix4 (0 : Fin 1) (0 : Fin 1) h w) = ix4 (0 : Fin 1) (13 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (5 : Fin 8) (13 : Fin 16) rfl h w]
    simp only [View.ld_unit_zero (S := S1x3x256x256) hz, View.ld_unit_zero (S := S1x6x256x256) hz]
    exact Cert.Planes.plane13 x1 h w
  · -- the piece stored through plane 5
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_12.emb (ix4 (0 : Fin 1) (0 : Fin 1) h w) = ix4 (0 : Fin 1) (5 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (5 : Fin 8) (5 : Fin 16) rfl h w]
    simp only [View.ld_unit_zero (S := S1x3x256x256) hz, View.ld_unit_zero (S := S1x6x256x256) hz]
    exact Cert.Planes.plane5 x0 h w
  · -- the piece stored through plane 12
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_11.emb (ix4 (0 : Fin 1) (0 : Fin 1) h w) = ix4 (0 : Fin 1) (12 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (4 : Fin 8) (12 : Fin 16) rfl h w]
    simp only [View.ld_unit_zero (S := S1x3x256x256) hz, View.ld_unit_zero (S := S1x6x256x256) hz]
    exact Cert.Planes.plane12 x1 h w
  · -- the piece stored through plane 4
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_10.emb (ix4 (0 : Fin 1) (0 : Fin 1) h w) = ix4 (0 : Fin 1) (4 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (4 : Fin 8) (4 : Fin 16) rfl h w]
    simp only [View.ld_unit_zero (S := S1x3x256x256) hz, View.ld_unit_zero (S := S1x6x256x256) hz]
    exact Cert.Planes.plane4 x0 h w
  · -- the piece stored through plane 11
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_9.emb (ix4 (0 : Fin 1) (0 : Fin 1) h w) = ix4 (0 : Fin 1) (11 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (3 : Fin 8) (11 : Fin 16) rfl h w]
    simp only [View.ld_unit_zero (S := S1x3x256x256) hz, View.ld_unit_zero (S := S1x6x256x256) hz]
    exact Cert.Planes.plane11 x1 h w
  · -- the piece stored through plane 3
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_8.emb (ix4 (0 : Fin 1) (0 : Fin 1) h w) = ix4 (0 : Fin 1) (3 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (3 : Fin 8) (3 : Fin 16) rfl h w]
    simp only [View.ld_unit_zero (S := S1x3x256x256) hz, View.ld_unit_zero (S := S1x6x256x256) hz]
    exact Cert.Planes.plane3 x0 h w
  · -- the piece stored through plane 10
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_7.emb (ix4 (0 : Fin 1) (0 : Fin 1) h w) = ix4 (0 : Fin 1) (10 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (2 : Fin 8) (10 : Fin 16) rfl h w]
    simp only [View.ld_unit_zero (S := S1x3x256x256) hz, View.ld_unit_zero (S := S1x6x256x256) hz]
    exact Cert.Planes.plane10 x1 h w
  · -- the piece stored through plane 2
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_6.emb (ix4 (0 : Fin 1) (0 : Fin 1) h w) = ix4 (0 : Fin 1) (2 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (2 : Fin 8) (2 : Fin 16) rfl h w]
    simp only [View.ld_unit_zero (S := S1x3x256x256) hz, View.ld_unit_zero (S := S1x6x256x256) hz]
    exact Cert.Planes.plane2 x0 h w
  · -- the piece stored through plane 9
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_5.emb (ix4 (0 : Fin 1) (0 : Fin 1) h w) = ix4 (0 : Fin 1) (9 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (1 : Fin 8) (9 : Fin 16) rfl h w]
    simp only [View.ld_unit_zero (S := S1x3x256x256) hz, View.ld_unit_zero (S := S1x6x256x256) hz]
    exact Cert.Planes.plane9 x1 h w
  · -- the piece stored through plane 1
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_4.emb (ix4 (0 : Fin 1) (0 : Fin 1) h w) = ix4 (0 : Fin 1) (1 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (1 : Fin 8) (1 : Fin 16) rfl h w]
    simp only [View.ld_unit_zero (S := S1x3x256x256) hz, View.ld_unit_zero (S := S1x6x256x256) hz]
    exact Cert.Planes.plane1 x0 h w
  · -- the piece stored through plane 8
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_3.emb (ix4 (0 : Fin 1) (0 : Fin 1) h w) = ix4 (0 : Fin 1) (8 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_hi x0 x1 (0 : Fin 1) (0 : Fin 8) (8 : Fin 16) rfl h w]
    simp only [View.ld_unit_zero (S := S1x3x256x256) hz, View.ld_unit_zero (S := S1x6x256x256) hz]
    exact Cert.Planes.plane8 x1 h w
  · -- the piece stored through plane 0
    intro x
    obtain ⟨a, b, h, w, rfl⟩ : ∃ (a b : Fin 1) (h w : Fin 256), x = ix4 a b h w := ⟨x 0, x 1, x 2, x 3, eq_ix4 x⟩
    obtain rfl : a = 0 := Subsingleton.elim _ _
    obtain rfl : b = 0 := Subsingleton.elim _ _
    have he : r0_2.emb (ix4 (0 : Fin 1) (0 : Fin 1) h w) = ix4 (0 : Fin 1) (0 : Fin 16) h w := by
      funext e; apply Fin.ext
      match e with
      | ⟨0, _⟩ => rfl
      | ⟨1, _⟩ => rfl
      | ⟨2, _⟩ => show 0 + 1 * h.val = h.val; omega
      | ⟨3, _⟩ => show 0 + 1 * w.val = w.val; omega
    rw [he, simMaps_lo x0 x1 (0 : Fin 1) (0 : Fin 8) (0 : Fin 16) rfl h w]
    simp only [View.ld_unit_zero (S := S1x3x256x256) hz, View.ld_unit_zero (S := S1x6x256x256) hz]
    exact Cert.Planes.plane0 x0 h w

end Cert.Block

end
-- ==== Proof.KernelRun.lean ====
/-
  The kernel's run with both results named. After the region the program cuts the maps into their two halves
  (planes 0–7 and 8–15), compares the first with the literal 0.1, multiplies the 0/1 outcome by the second, sums
  everything from the literal zero and divides by the literal 2²³: the loss of the specification applied to the two
  halves of the maps, which are the specification's halves.
-/
import proofs.«103307_j44281112822069_1_alg».proof.Proof.KernelArray
import Idealize.ShloMosaic.Lib.StableHlo.Run

set_option maxRecDepth 16384

noncomputable section

namespace Cert.KernelRun

open Cert.KernelIdeal Cert.KernelIdeal.Gen Idealize.ShloMosaic Idealize.ShloMosaic.TcCoe Idealize.SL.Sem
open Idealize.ShloMosaic.StableHlo
open Idealize.ShloMosaic.ValueIdx
open Idealize.ShloMosaic.Pipeline (Dat)
open Cert.Spec Cert.KernelArray

variable (m : (ℓ : Loc nD τ sig) → Buf (Elt Ideal) ℓ) (ρ : Dev nD → PrngReg)

/-- What the lines after the region leave in the loss buffer: the specification's loss of the specification's halves. -/
theorem loss_eq (hblk : BlockSpec) (c : Dev nD) :
    Pipeline.afterTail₀ cfgs (dats m) 0 (V0 m) [hostOps1] c main_v8
      = lossOf (simWarr (m ((c : Thread nD τ).loc main_arg0))) (simVarr (m ((c : Thread nD τ).loc main_arg1)))
          bcast_S_S16x8x256x256 reducesTo_S16x8x256x256_S_d0_1_2_3 h_S_ := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.devRef .tc main_v0)
      = simMaps (m ((c : Thread nD τ).loc main_arg0)) (m ((c : Thread nD τ).loc main_arg1))
    from (Pipeline.withArrays_arr spec0 launch0.win.arr_inj c _ _ 2).trans (final m hblk c)]
  rw [slice_lo, slice_hi]
  rfl

/-- The frame run re-posted: the maps, the loss, and the arguments unchanged. -/
theorem run (hblk : BlockSpec) :
    θ_run defs (onTc (τ := τ) (main (F := Ideal))) ⟨m, fun _ => 0, ρ⟩ fun r => ∀ c : Dev nD,
      r.2.mem ((c : Thread nD τ).loc main_v0) = simMaps (m ((c : Thread nD τ).loc main_arg0)) (m ((c : Thread nD τ).loc main_arg1))
      ∧ r.2.mem ((c : Thread nD τ).loc main_v8)
          = lossOf (simWarr (m ((c : Thread nD τ).loc main_arg0))) (simVarr (m ((c : Thread nD τ).loc main_arg1)))
              bcast_S_S16x8x256x256 reducesTo_S16x8x256x256_S_d0_1_2_3 h_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hblk c),
      ((h c).2 main_v8 (Pipeline.mem_restRefs_of main_v8 rfl (fun w => by fin_cases w <;> decide))).trans (loss_eq m hblk c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelRun

end
-- ==== Proof.RefLib.lean ====
/-
  The border, the window slices and the stack of eight planes, read at an index.

  An image batch [B, C, 256, 256] is surrounded by a one-pixel border of a value that is zero; a slice of the
  result at the offsets (0, 0, oy, ox) is the image moved by the window offset (oy, ox), zero where the moved pixel
  falls outside the image: the specification's neighbour `nbr`. Eight such slices, each given a unit axis, are laid
  end to end along that axis; plane `k` of the stack is the `k`-th slice.
-/
import Idealize.ShloMosaic.Lib.KernelVsHost
import Idealize.ShloMosaic.Lib.Pipeline.Value
import Idealize.ShloMosaic.Lib.ValueIdx
import Idealize.ShloMosaic.PureOps.Ideal.Laws
import proofs.«103307_j44281112822069_1_alg».proof.Proof.Spec

noncomputable section

namespace Cert.RefLib

open Idealize.ShloMosaic Idealize.ShloMosaic.ValueIdx Cert.Spec

/-- A slice at the offsets `(0, 0, oy, ox)` of the image surrounded by a one-pixel border of the value `v`, itself zero:
    at pixel `(h, w)` it is the neighbour at window offset `(oy, ox)` — the padded image at `(h + oy, w + ox)`, which is
    the image at `(h + oy − 1, w + ox − 1)` when that is a pixel of the image and the border value otherwise. -/
theorem slice_pad_eq_nbr {B C : ℕ} (x : (⟨4, ![B, C, 256, 256]⟩ : Shape).Idx → EReal) {u : Shape} (v : u.Idx → EReal)
    (hp : (⟨4, ![B, C, 256, 256]⟩ : Shape).Pads (![0, 0, 1, 1] : Fin 4 → Nat) ![0, 0, 1, 1] ![0, 0, 0, 0] ⟨4, ![B, C, 258, 258]⟩)
    (hu : 0 < u.numel) (hv : v (Shape.Idx.first hu) = 0) (oy ox : ℕ)
    (hsl : (⟨4, ![B, C, 258, 258]⟩ : Shape).Slices ![0, 0, oy, ox] ⟨4, ![B, C, 256, 256]⟩)
    (b : Fin B) (c : Fin C) (h w : Fin 256) :
    extractStridedSlice ⟨4, ![B, C, 256, 256]⟩ ![0, 0, oy, ox]
        (pad ⟨4, ![B, C, 258, 258]⟩ ![0, 0, 1, 1] ![0, 0, 1, 1] ![0, 0, 0, 0] x v hp hu) hsl (ix4 b c h w)
      = nbr x oy ox b c h w := by
  have hh : h.val < 256 := h.isLt
  have hw : w.val < 256 := w.isLt
  have hoy : oy + 256 ≤ 258 := hsl.2 (2 : Fin 4)
  have hox : ox + 256 ≤ 258 := hsl.2 (3 : Fin 4)
  refine (extractStridedSlice_apply _ _ hsl (ix4 b c h w)
    (ix4 b c (⟨oy + h.val, by omega⟩ : Fin 258) (⟨ox + w.val, by omega⟩ : Fin 258)) (by
    intro a
    match a with
    | ⟨0, _⟩ => show b.val = 0 + b.val; omega
    | ⟨1, _⟩ => show c.val = 0 + c.val; omega
    | ⟨2, _⟩ => rfl
    | ⟨3, _⟩ => rfl)).trans ?_
  unfold nbr
  by_cases hin : inside oy h ∧ inside ox w
  · rw [if_pos hin]
    have e1 := moved_val_of_inside hin.1
    have e2 := moved_val_of_inside hin.2
    exact pad_apply_of_inside _ _ _ x v hp hu _ (ix4 b c (moved oy h) (moved ox w)) (by
      intro a
      match a with
      | ⟨0, _⟩ => show b.val = 0 + b.val * (0 + 1); omega
      | ⟨1, _⟩ => show c.val = 0 + c.val * (0 + 1); omega
      | ⟨2, _⟩ => show oy + h.val = 1 + (moved oy h).val * (0 + 1); omega
      | ⟨3, _⟩ => show ox + w.val = 1 + (moved ox w).val * (0 + 1); omega)
  · rw [if_neg hin, ← hv]
    by_cases hy : inside oy h
    · have hx : ¬ inside ox w := fun hx => hin ⟨hy, hx⟩
      exact pad_apply_of_not_inside _ _ _ x v hp hu _ (3 : Fin 4) (by
        intro hc
        have e1 : 1 ≤ ox + w.val := hc.1
        have e3 : (ox + w.val - 1) / 1 < 256 := hc.2.2
        exact hx (by unfold inside; constructor <;> omega))
    · exact pad_apply_of_not_inside _ _ _ x v hp hu _ (2 : Fin 4) (by
        intro hc
        have e1 : 1 ≤ oy + h.val := hc.1
        have e3 : (oy + h.val - 1) / 1 < 256 := hc.2.2
        exact hy (by unfold inside; constructor <;> omega))

/-- The same slice given a unit axis (a broadcast [B, C, 256, 256] → [B, C, 1, 256, 256] along the axes 0, 1, 3, 4), read
    at the unit axis' one coordinate. -/
theorem bcast_slice_pad_eq_nbr {B C : ℕ} (x : (⟨4, ![B, C, 256, 256]⟩ : Shape).Idx → EReal) {u : Shape} (v : u.Idx → EReal)
    (hp : (⟨4, ![B, C, 256, 256]⟩ : Shape).Pads (![0, 0, 1, 1] : Fin 4 → Nat) ![0, 0, 1, 1] ![0, 0, 0, 0] ⟨4, ![B, C, 258, 258]⟩)
    (hu : 0 < u.numel) (hv : v (Shape.Idx.first hu) = 0) (oy ox : ℕ)
    (hsl : (⟨4, ![B, C, 258, 258]⟩ : Shape).Slices ![0, 0, oy, ox] ⟨4, ![B, C, 256, 256]⟩)
    (hbc : (⟨4, ![B, C, 256, 256]⟩ : Shape).BroadcastsInDim ⟨5, ![B, C, 1, 256, 256]⟩ (![0, 1, 3, 4] : Fin 4 → Fin 5))
    (b : Fin B) (c : Fin C) (h w : Fin 256) :
    broadcastInDim ⟨5, ![B, C, 1, 256, 256]⟩ ![0, 1, 3, 4] hbc
        (extractStridedSlice ⟨4, ![B, C, 256, 256]⟩ ![0, 0, oy, ox]
          (pad ⟨4, ![B, C, 258, 258]⟩ ![0, 0, 1, 1] ![0, 0, 1, 1] ![0, 0, 0, 0] x v hp hu) hsl) (ix5 b c (0 : Fin 1) h w)
      = nbr x oy ox b c h w := by
  have hb : b.val < B := b.isLt
  have hc : c.val < C := c.isLt
  refine (broadcastInDim_apply _ hbc _ (ix5 b c (0 : Fin 1) h w) (ix4 b c h w) (fun a => ?_)).trans
    (slice_pad_eq_nbr x v hp hu hv oy ox hsl b c h w)
  match a with
  | ⟨0, _⟩ => show b.val = if B = 1 then 0 else b.val; split <;> omega
  | ⟨1, _⟩ => show c.val = if C = 1 then 0 else c.val; split <;> omega
  | ⟨2, _⟩ => show h.val = if (256 : Nat) = 1 then 0 else h.val; rw [if_neg (by decide)]
  | ⟨3, _⟩ => show w.val = if (256 : Nat) = 1 then 0 else w.val; rw [if_neg (by decide)]

/-- Eight arrays [B, C, 1, 256, 256] laid end to end along the unit axis: plane `k` of the result is the `k`-th array. -/
theorem concat8_apply {α : Type} {B C : ℕ} (f : Fin 8 → ((⟨5, ![B, C, 1, 256, 256]⟩ : Shape).Idx → α))
    (hc : Shape.Concatenates [(⟨5, ![B, C, 1, 256, 256]⟩ : Shape), ⟨5, ![B, C, 1, 256, 256]⟩, ⟨5, ![B, C, 1, 256, 256]⟩,
      ⟨5, ![B, C, 1, 256, 256]⟩, ⟨5, ![B, C, 1, 256, 256]⟩, ⟨5, ![B, C, 1, 256, 256]⟩, ⟨5, ![B, C, 1, 256, 256]⟩,
      ⟨5, ![B, C, 1, 256, 256]⟩] ⟨5, ![B, C, 8, 256, 256]⟩ 2)
    (b : Fin B) (c : Fin C) (k : Fin 8) (h w : Fin 256) :
    concatenate ⟨5, ![B, C, 8, 256, 256]⟩ 2 [⟨⟨5, ![B, C, 1, 256, 256]⟩, f 0⟩, ⟨⟨5, ![B, C, 1, 256, 256]⟩, f 1⟩,
        ⟨⟨5, ![B, C, 1, 256, 256]⟩, f 2⟩, ⟨⟨5, ![B, C, 1, 256, 256]⟩, f 3⟩, ⟨⟨5, ![B, C, 1, 256, 256]⟩, f 4⟩,
        ⟨⟨5, ![B, C, 1, 256, 256]⟩, f 5⟩, ⟨⟨5, ![B, C, 1, 256, 256]⟩, f 6⟩, ⟨⟨5, ![B, C, 1, 256, 256]⟩, f 7⟩] hc (ix5 b c k h w)
      = f k (ix5 b c (0 : Fin 1) h w) := by
  have key : ∀ (xs : List ((s : Shape) × (s.Idx → α)))
      (_ : xs = List.ofFn fun n : Fin 8 => (⟨⟨5, ![B, C, 1, 256, 256]⟩, f n⟩ : (s : Shape) × (s.Idx → α)))
      (hc' : Shape.Concatenates (xs.map (·.1)) ⟨5, ![B, C, 8, 256, 256]⟩ 2),
      concatenate ⟨5, ![B, C, 8, 256, 256]⟩ 2 xs hc' (ix5 b c k h w) = f k (ix5 b c (0 : Fin 1) h w) := by
    intro xs hxs hc'
    subst hxs
    exact concatenate_ofFn_unit_apply (t := ⟨5, ![B, C, 8, 256, 256]⟩) (2 : Fin 5) f hc' rfl rfl (ix5 b c k h w) k rfl
      (ix5 b c (0 : Fin 1) h w) (fun a ha => by
        match a with
        | ⟨0, _⟩ => rfl
        | ⟨1, _⟩ => rfl
        | ⟨2, _⟩ => exact absurd rfl ha
        | ⟨3, _⟩ => rfl
        | ⟨4, _⟩ => rfl)
  exact key _ rfl hc

end Cert.RefLib

end
-- ==== Proof.RefSide.lean ====
/-
  The reference program's results, identified with the specification.

  The program surrounds each image batch with a one-pixel border of zeros, cuts out the eight copies moved by the window
  offsets (the centre left out), stacks them along a new axis, subtracts the stack from the image repeated along that
  axis, squares, sums over the channels and takes the square root; for the first image it then multiplies by −1 and
  exponentiates. Read at an index, plane `k` of the stack at pixel `(h, w)` is the specification's neighbour at the
  `k`-th offset, the sum over the channels its squared distance, and the two results its similarity maps; the loss is
  the same chain of whole-array operations on both sides.
-/
import proofs.«103307_j44281112822069_1_alg».proof.Proof.Spec
import proofs.«103307_j44281112822069_1_alg».proof.Proof.RefLib
import proofs.«103307_j44281112822069_1_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx
open Cert.Spec Cert.RefLib

/-! ## The first image: planes 0–7 -/

/-- The border value of the first image: the integer 0 converted to a float, the number 0. -/
theorem border_lab (i : S_.Idx) : val_main_call0_v0 (F := Ideal) i = 0 := by
  show (((0#32 : BitVec 32).toInt : ℝ) : EReal) = 0
  simp

/-- Plane 0 of the first stack, before stacking: the neighbour at window offset (0, 0). -/
theorem piece_lab0 (lab : (⟨S16x3x256x256, .f32⟩ : BufTy).Contents (Elt Ideal)) (b : Fin 16) (c : Fin 3) (h w : Fin 256) :
    val_main_v10 (F := Ideal) lab (ix5 b c (0 : Fin 1) h w) = nbr lab 0 0 b c h w := by
  unfold val_main_v10 val_main_v2 val_main_v1
  exact bcast_slice_pad_eq_nbr lab (val_main_call0_v0 (F := Ideal)) pads_S16x3x256x256_S16x3x258x258_000_000_110_110 h_S_
    (border_lab _) 0 0 slices_S16x3x258x258_S16x3x256x256_0_0_0_0 bcast_S16x3x256x256_S16x3x1x256x256_0_1_3_4 b c h w

/-- Plane 1 of the first stack, before stacking: the neighbour at window offset (0, 1). -/
theorem piece_lab1 (lab : (⟨S16x3x256x256, .f32⟩ : BufTy).Contents (Elt Ideal)) (b : Fin 16) (c : Fin 3) (h w : Fin 256) :
    val_main_v11 (F := Ideal) lab (ix5 b c (0 : Fin 1) h w) = nbr lab 0 1 b c h w := by
  unfold val_main_v11 val_main_v3 val_main_v1
  exact bcast_slice_pad_eq_nbr lab (val_main_call0_v0 (F := Ideal)) pads_S16x3x256x256_S16x3x258x258_000_000_110_110 h_S_
    (border_lab _) 0 1 slices_S16x3x258x258_S16x3x256x256_0_0_0_1 bcast_S16x3x256x256_S16x3x1x256x256_0_1_3_4 b c h w

/-- Plane 2 of the first stack, before stacking: the neighbour at window offset (0, 2). -/
theorem piece_lab2 (lab : (⟨S16x3x256x256, .f32⟩ : BufTy).Contents (Elt Ideal)) (b : Fin 16) (c : Fin 3) (h w : Fin 256) :
    val_main_v12 (F := Ideal) lab (ix5 b c (0 : Fin 1) h w) = nbr lab 0 2 b c h w := by
  unfold val_main_v12 val_main_v4 val_main_v1
  exact bcast_slice_pad_eq_nbr lab (val_main_call0_v0 (F := Ideal)) pads_S16x3x256x256_S16x3x258x258_000_000_110_110 h_S_
    (border_lab _) 0 2 slices_S16x3x258x258_S16x3x256x256_0_0_0_2 bcast_S16x3x256x256_S16x3x1x256x256_0_1_3_4 b c h w

/-- Plane 3 of the first stack, before stacking: the neighbour at window offset (1, 0). -/
theorem piece_lab3 (lab : (⟨S16x3x256x256, .f32⟩ : BufTy).Contents (Elt Ideal)) (b : Fin 16) (c : Fin 3) (h w : Fin 256) :
    val_main_v13 (F := Ideal) lab (ix5 b c (0 : Fin 1) h w) = nbr lab 1 0 b c h w := by
  unfold val_main_v13 val_main_v5 val_main_v1
  exact bcast_slice_pad_eq_nbr lab (val_main_call0_v0 (F := Ideal)) pads_S16x3x256x256_S16x3x258x258_000_000_110_110 h_S_
    (border_lab _) 1 0 slices_S16x3x258x258_S16x3x256x256_0_0_1_0 bcast_S16x3x256x256_S16x3x1x256x256_0_1_3_4 b c h w

/-- Plane 4 of the first stack, before stacking: the neighbour at window offset (1, 2). -/
theorem piece_lab4 (lab : (⟨S16x3x256x256, .f32⟩ : BufTy).Contents (Elt Ideal)) (b : Fin 16) (c : Fin 3) (h w : Fin 256) :
    val_main_v14 (F := Ideal) lab (ix5 b c (0 : Fin 1) h w) = nbr lab 1 2 b c h w := by
  unfold val_main_v14 val_main_v6 val_main_v1
  exact bcast_slice_pad_eq_nbr lab (val_main_call0_v0 (F := Ideal)) pads_S16x3x256x256_S16x3x258x258_000_000_110_110 h_S_
    (border_lab _) 1 2 slices_S16x3x258x258_S16x3x256x256_0_0_1_2 bcast_S16x3x256x256_S16x3x1x256x256_0_1_3_4 b c h w

/-- Plane 5 of the first stack, before stacking: the neighbour at window offset (2, 0). -/
theorem piece_lab5 (lab : (⟨S16x3x256x256, .f32⟩ : BufTy).Contents (Elt Ideal)) (b : Fin 16) (c : Fin 3) (h w : Fin 256) :
    val_main_v15 (F := Ideal) lab (ix5 b c (0 : Fin 1) h w) = nbr lab 2 0 b c h w := by
  unfold val_main_v15 val_main_v7 val_main_v1
  exact bcast_slice_pad_eq_nbr lab (val_main_call0_v0 (F := Ideal)) pads_S16x3x256x256_S16x3x258x258_000_000_110_110 h_S_
    (border_lab _) 2 0 slices_S16x3x258x258_S16x3x256x256_0_0_2_0 bcast_S16x3x256x256_S16x3x1x256x256_0_1_3_4 b c h w

/-- Plane 6 of the first stack, before stacking: the neighbour at window offset (2, 1). -/
theorem piece_lab6 (lab : (⟨S16x3x256x256, .f32⟩ : BufTy).Contents (Elt Ideal)) (b : Fin 16) (c : Fin 3) (h w : Fin 256) :
    val_main_v16 (F := Ideal) lab (ix5 b c (0 : Fin 1) h w) = nbr lab 2 1 b c h w := by
  unfold val_main_v16 val_main_v8 val_main_v1
  exact bcast_slice_pad_eq_nbr lab (val_main_call0_v0 (F := Ideal)) pads_S16x3x256x256_S16x3x258x258_000_000_110_110 h_S_
    (border_lab _) 2 1 slices_S16x3x258x258_S16x3x256x256_0_0_2_1 bcast_S16x3x256x256_S16x3x1x256x256_0_1_3_4 b c h w

/-- Plane 7 of the first stack, before stacking: the neighbour at window offset (2, 2). -/
theorem piece_lab7 (lab : (⟨S16x3x256x256, .f32⟩ : BufTy).Contents (Elt Ideal)) (b : Fin 16) (c : Fin 3) (h w : Fin 256) :
    val_main_v17 (F := Ideal) lab (ix5 b c (0 : Fin 1) h w) = nbr lab 2 2 b c h w := by
  unfold val_main_v17 val_main_v9 val_main_v1
  exact bcast_slice_pad_eq_nbr lab (val_main_call0_v0 (F := Ideal)) pads_S16x3x256x256_S16x3x258x258_000_000_110_110 h_S_
    (border_lab _) 2 2 slices_S16x3x258x258_S16x3x256x256_0_0_2_2 bcast_S16x3x256x256_S16x3x1x256x256_0_1_3_4 b c h w

/-- The stack of the eight moved first images: plane `k` is the neighbour at the `k`-th window offset. -/
theorem stack_lab (lab : (⟨S16x3x256x256, .f32⟩ : BufTy).Contents (Elt Ideal)) (b : Fin 16) (c : Fin 3) (k : Fin 8) (h w : Fin 256) :
    val_main_v18 (F := Ideal) lab (ix5 b c k h w) = nbr lab (offY k) (offX k) b c h w := by
  unfold val_main_v18
  refine (concat8_apply ![val_main_v10 (F := Ideal) lab, val_main_v11 (F := Ideal) lab, val_main_v12 (F := Ideal) lab, val_main_v13 (F := Ideal) lab, val_main_v14 (F := Ideal) lab, val_main_v15 (F := Ideal) lab, val_main_v16 (F := Ideal) lab, val_main_v17 (F := Ideal) lab]
    concatenates_S16x3x1x256x256_S16x3x1x256x256_S16x3x1x256x256_S16x3x1x256x256_S16x3x1x256x256_S16x3x1x256x256_S16x3x1x256x256_S16x3x1x256x256_S16x3x8x256x256_d2 b c k h w).trans ?_
  match k with
  | ⟨0, _⟩ => exact piece_lab0 lab b c h w
  | ⟨1, _⟩ => exact piece_lab1 lab b c h w
  | ⟨2, _⟩ => exact piece_lab2 lab b c h w
  | ⟨3, _⟩ => exact piece_lab3 lab b c h w
  | ⟨4, _⟩ => exact piece_lab4 lab b c h w
  | ⟨5, _⟩ => exact piece_lab5 lab b c h w
  | ⟨6, _⟩ => exact piece_lab6 lab b c h w
  | ⟨7, _⟩ => exact piece_lab7 lab b c h w

/-- The first image repeated over the eight planes. -/
theorem image_lab (lab : (⟨S16x3x256x256, .f32⟩ : BufTy).Contents (Elt Ideal)) (b : Fin 16) (c : Fin 3) (k : Fin 8) (h w : Fin 256) :
    val_main_v19 (F := Ideal) lab (ix5 b c k h w) = lab (ix4 b c h w) := by
  rw [val_main_v19_apply, val_main_v0_apply]
  exact congrArg lab (funext fun a => by
    match a with
    | ⟨0, _⟩ => rfl
    | ⟨1, _⟩ => rfl
    | ⟨2, _⟩ => rfl
    | ⟨3, _⟩ => rfl)

/-- The sum over the channels of the squared differences is the specification's squared distance. -/
theorem dist_lab (lab : (⟨S16x3x256x256, .f32⟩ : BufTy).Contents (Elt Ideal)) (b : Fin 16) (k : Fin 8) (h w : Fin 256) :
    val_main_v22 (F := Ideal) lab (ix4 b k h w) = dist2 lab (offY k) (offX k) b h w := by
  rw [val_main_v22_apply, val_main_cst_apply, Ideal.ofBits_def, Ideal.ofBits_zero_f32, zero_add]
  unfold dist2
  refine Finset.sum_congr rfl fun c _ => ?_
  have hi : idx_main_v22 (ix4 b k h w) c = ix5 b c k h w := funext fun a => by
    match a with
    | ⟨0, _⟩ => rfl
    | ⟨1, _⟩ => rfl
    | ⟨2, _⟩ => rfl
    | ⟨3, _⟩ => rfl
    | ⟨4, _⟩ => rfl
  rw [hi, val_main_v21_apply, val_main_v20_apply, image_lab, stack_lab]
  rfl

/-- The first half of the maps: `exp(−√dist2)` of the first image. -/
theorem ref_W (lab : (⟨S16x3x256x256, .f32⟩ : BufTy).Contents (Elt Ideal)) : val_main_v26 (F := Ideal) lab = simWarr lab := by
  funext i
  obtain ⟨b, k, h, w, rfl⟩ : ∃ (b : Fin 16) (k : Fin 8) (h w : Fin 256), i = ix4 b k h w := ⟨i 0, i 1, i 2, i 3, eq_ix4 i⟩
  rw [simWarr_apply, val_main_v26_apply, val_main_v25_apply, val_main_v24_apply, val_main_cst_0_apply, val_main_v23_apply,
    dist_lab]
  rfl

/-! ## The second image: planes 8–15 -/

/-- The border value of the second image: the integer 0 converted to a float, the number 0. -/
theorem border_vec (i : S_.Idx) : val_main_call1_v0 (F := Ideal) i = 0 := by
  show (((0#32 : BitVec 32).toInt : ℝ) : EReal) = 0
  simp

/-- Plane 0 of the second stack, before stacking: the neighbour at window offset (0, 0). -/
theorem piece_vec0 (vec : (⟨S16x6x256x256, .f32⟩ : BufTy).Contents (Elt Ideal)) (b : Fin 16) (c : Fin 6) (h w : Fin 256) :
    val_main_v37 (F := Ideal) vec (ix5 b c (0 : Fin 1) h w) = nbr vec 0 0 b c h w := by
  unfold val_main_v37 val_main_v29 val_main_v28
  exact bcast_slice_pad_eq_nbr vec (val_main_call1_v0 (F := Ideal)) pads_S16x6x256x256_S16x6x258x258_000_000_110_110 h_S_
    (border_vec _) 0 0 slices_S16x6x258x258_S16x6x256x256_0_0_0_0 bcast_S16x6x256x256_S16x6x1x256x256_0_1_3_4 b c h w

/-- Plane 1 of the second stack, before stacking: the neighbour at window offset (0, 1). -/
theorem piece_vec1 (vec : (⟨S16x6x256x256, .f32⟩ : BufTy).Contents (Elt Ideal)) (b : Fin 16) (c : Fin 6) (h w : Fin 256) :
    val_main_v38 (F := Ideal) vec (ix5 b c (0 : Fin 1) h w) = nbr vec 0 1 b c h w := by
  unfold val_main_v38 val_main_v30 val_main_v28
  exact bcast_slice_pad_eq_nbr vec (val_main_call1_v0 (F := Ideal)) pads_S16x6x256x256_S16x6x258x258_000_000_110_110 h_S_
    (border_vec _) 0 1 slices_S16x6x258x258_S16x6x256x256_0_0_0_1 bcast_S16x6x256x256_S16x6x1x256x256_0_1_3_4 b c h w

/-- Plane 2 of the second stack, before stacking: the neighbour at window offset (0, 2). -/
theorem piece_vec2 (vec : (⟨S16x6x256x256, .f32⟩ : BufTy).Contents (Elt Ideal)) (b : Fin 16) (c : Fin 6) (h w : Fin 256) :
    val_main_v39 (F := Ideal) vec (ix5 b c (0 : Fin 1) h w) = nbr vec 0 2 b c h w := by
  unfold val_main_v39 val_main_v31 val_main_v28
  exact bcast_slice_pad_eq_nbr vec (val_main_call1_v0 (F := Ideal)) pads_S16x6x256x256_S16x6x258x258_000_000_110_110 h_S_
    (border_vec _) 0 2 slices_S16x6x258x258_S16x6x256x256_0_0_0_2 bcast_S16x6x256x256_S16x6x1x256x256_0_1_3_4 b c h w

/-- Plane 3 of the second stack, before stacking: the neighbour at window offset (1, 0). -/
theorem piece_vec3 (vec : (⟨S16x6x256x256, .f32⟩ : BufTy).Contents (Elt Ideal)) (b : Fin 16) (c : Fin 6) (h w : Fin 256) :
    val_main_v40 (F := Ideal) vec (ix5 b c (0 : Fin 1) h w) = nbr vec 1 0 b c h w := by
  unfold val_main_v40 val_main_v32 val_main_v28
  exact bcast_slice_pad_eq_nbr vec (val_main_call1_v0 (F := Ideal)) pads_S16x6x256x256_S16x6x258x258_000_000_110_110 h_S_
    (border_vec _) 1 0 slices_S16x6x258x258_S16x6x256x256_0_0_1_0 bcast_S16x6x256x256_S16x6x1x256x256_0_1_3_4 b c h w

/-- Plane 4 of the second stack, before stacking: the neighbour at window offset (1, 2). -/
theorem piece_vec4 (vec : (⟨S16x6x256x256, .f32⟩ : BufTy).Contents (Elt Ideal)) (b : Fin 16) (c : Fin 6) (h w : Fin 256) :
    val_main_v41 (F := Ideal) vec (ix5 b c (0 : Fin 1) h w) = nbr vec 1 2 b c h w := by
  unfold val_main_v41 val_main_v33 val_main_v28
  exact bcast_slice_pad_eq_nbr vec (val_main_call1_v0 (F := Ideal)) pads_S16x6x256x256_S16x6x258x258_000_000_110_110 h_S_
    (border_vec _) 1 2 slices_S16x6x258x258_S16x6x256x256_0_0_1_2 bcast_S16x6x256x256_S16x6x1x256x256_0_1_3_4 b c h w

/-- Plane 5 of the second stack, before stacking: the neighbour at window offset (2, 0). -/
theorem piece_vec5 (vec : (⟨S16x6x256x256, .f32⟩ : BufTy).Contents (Elt Ideal)) (b : Fin 16) (c : Fin 6) (h w : Fin 256) :
    val_main_v42 (F := Ideal) vec (ix5 b c (0 : Fin 1) h w) = nbr vec 2 0 b c h w := by
  unfold val_main_v42 val_main_v34 val_main_v28
  exact bcast_slice_pad_eq_nbr vec (val_main_call1_v0 (F := Ideal)) pads_S16x6x256x256_S16x6x258x258_000_000_110_110 h_S_
    (border_vec _) 2 0 slices_S16x6x258x258_S16x6x256x256_0_0_2_0 bcast_S16x6x256x256_S16x6x1x256x256_0_1_3_4 b c h w

/-- Plane 6 of the second stack, before stacking: the neighbour at window offset (2, 1). -/
theorem piece_vec6 (vec : (⟨S16x6x256x256, .f32⟩ : BufTy).Contents (Elt Ideal)) (b : Fin 16) (c : Fin 6) (h w : Fin 256) :
    val_main_v43 (F := Ideal) vec (ix5 b c (0 : Fin 1) h w) = nbr vec 2 1 b c h w := by
  unfold val_main_v43 val_main_v35 val_main_v28
  exact bcast_slice_pad_eq_nbr vec (val_main_call1_v0 (F := Ideal)) pads_S16x6x256x256_S16x6x258x258_000_000_110_110 h_S_
    (border_vec _) 2 1 slices_S16x6x258x258_S16x6x256x256_0_0_2_1 bcast_S16x6x256x256_S16x6x1x256x256_0_1_3_4 b c h w

/-- Plane 7 of the second stack, before stacking: the neighbour at window offset (2, 2). -/
theorem piece_vec7 (vec : (⟨S16x6x256x256, .f32⟩ : BufTy).Contents (Elt Ideal)) (b : Fin 16) (c : Fin 6) (h w : Fin 256) :
    val_main_v44 (F := Ideal) vec (ix5 b c (0 : Fin 1) h w) = nbr vec 2 2 b c h w := by
  unfold val_main_v44 val_main_v36 val_main_v28
  exact bcast_slice_pad_eq_nbr vec (val_main_call1_v0 (F := Ideal)) pads_S16x6x256x256_S16x6x258x258_000_000_110_110 h_S_
    (border_vec _) 2 2 slices_S16x6x258x258_S16x6x256x256_0_0_2_2 bcast_S16x6x256x256_S16x6x1x256x256_0_1_3_4 b c h w

/-- The stack of the eight moved second images: plane `k` is the neighbour at the `k`-th window offset. -/
theorem stack_vec (vec : (⟨S16x6x256x256, .f32⟩ : BufTy).Contents (Elt Ideal)) (b : Fin 16) (c : Fin 6) (k : Fin 8) (h w : Fin 256) :
    val_main_v45 (F := Ideal) vec (ix5 b c k h w) = nbr vec (offY k) (offX k) b c h w := by
  unfold val_main_v45
  refine (concat8_apply ![val_main_v37 (F := Ideal) vec, val_main_v38 (F := Ideal) vec, val_main_v39 (F := Ideal) vec, val_main_v40 (F := Ideal) vec, val_main_v41 (F := Ideal) vec, val_main_v42 (F := Ideal) vec, val_main_v43 (F := Ideal) vec, val_main_v44 (F := Ideal) vec]
    concatenates_S16x6x1x256x256_S16x6x1x256x256_S16x6x1x256x256_S16x6x1x256x256_S16x6x1x256x256_S16x6x1x256x256_S16x6x1x256x256_S16x6x1x256x256_S16x6x8x256x256_d2 b c k h w).trans ?_
  match k with
  | ⟨0, _⟩ => exact piece_vec0 vec b c h w
  | ⟨1, _⟩ => exact piece_vec1 vec b c h w
  | ⟨2, _⟩ => exact piece_vec2 vec b c h w
  | ⟨3, _⟩ => exact piece_vec3 vec b c h w
  | ⟨4, _⟩ => exact piece_vec4 vec b c h w
  | ⟨5, _⟩ => exact piece_vec5 vec b c h w
  | ⟨6, _⟩ => exact piece_vec6 vec b c h w
  | ⟨7, _⟩ => exact piece_vec7 vec b c h w

/-- The second image repeated over the eight planes. -/
theorem image_vec (vec : (⟨S16x6x256x256, .f32⟩ : BufTy).Contents (Elt Ideal)) (b : Fin 16) (c : Fin 6) (k : Fin 8) (h w : Fin 256) :
    val_main_v46 (F := Ideal) vec (ix5 b c k h w) = vec (ix4 b c h w) := by
  rw [val_main_v46_apply, val_main_v27_apply]
  exact congrArg vec (funext fun a => by
    match a with
    | ⟨0, _⟩ => rfl
    | ⟨1, _⟩ => rfl
    | ⟨2, _⟩ => rfl
    | ⟨3, _⟩ => rfl)

/-- The sum over the channels of the squared differences is the specification's squared distance. -/
theorem dist_vec (vec : (⟨S16x6x256x256, .f32⟩ : BufTy).Contents (Elt Ideal)) (b : Fin 16) (k : Fin 8) (h w : Fin 256) :
    val_main_v49 (F := Ideal) vec (ix4 b k h w) = dist2 vec (offY k) (offX k) b h w := by
  rw [val_main_v49_apply, val_main_cst_2_apply, Ideal.ofBits_def, Ideal.ofBits_zero_f32, zero_add]
  unfold dist2
  refine Finset.sum_congr rfl fun c _ => ?_
  have hi : idx_main_v49 (ix4 b k h w) c = ix5 b c k h w := funext fun a => by
    match a with
    | ⟨0, _⟩ => rfl
    | ⟨1, _⟩ => rfl
    | ⟨2, _⟩ => rfl
    | ⟨3, _⟩ => rfl
    | ⟨4, _⟩ => rfl
  rw [hi, val_main_v48_apply, val_main_v47_apply, image_vec, stack_vec]
  rfl

/-- The second half of the maps: `√dist2` of the second image. -/
theorem ref_V (vec : (⟨S16x6x256x256, .f32⟩ : BufTy).Contents (Elt Ideal)) : val_main_v50 (F := Ideal) vec = simVarr vec := by
  funext i
  obtain ⟨b, k, h, w, rfl⟩ : ∃ (b : Fin 16) (k : Fin 8) (h w : Fin 256), i = ix4 b k h w := ⟨i 0, i 1, i 2, i 3, eq_ix4 i⟩
  rw [simVarr_apply, val_main_v50_apply, dist_vec]
  rfl

/-! ## The two results -/

/-- The sixteen maps: the two halves laid end to end along the plane axis. -/
theorem ref_maps (lab : (⟨S16x3x256x256, .f32⟩ : BufTy).Contents (Elt Ideal)) (vec : (⟨S16x6x256x256, .f32⟩ : BufTy).Contents (Elt Ideal)) :
    val_main_v57 (F := Ideal) lab vec = simMaps lab vec := by
  funext i
  obtain ⟨b, k, h, w, rfl⟩ : ∃ (b : Fin 16) (k : Fin 16) (h w : Fin 256), i = ix4 b k h w := ⟨i 0, i 1, i 2, i 3, eq_ix4 i⟩
  have hk16 : k.val < 16 := k.isLt
  unfold val_main_v57
  by_cases hk : k.val < 8
  · refine (concatenate_pair_apply_left (t := S16x16x256x256) (s₁ := S16x8x256x256) (s₂ := S16x8x256x256) (1 : Fin 4)
      (val_main_v26 (F := Ideal) lab) (val_main_v50 (F := Ideal) vec) concatenates_S16x8x256x256_S16x8x256x256_S16x16x256x256_d1
      (ix4 b k h w) rfl (ix4 b (⟨k.val, hk⟩ : Fin 8) h w) (fun a => by
        match a with
        | ⟨0, _⟩ => rfl
        | ⟨1, _⟩ => rfl
        | ⟨2, _⟩ => rfl
        | ⟨3, _⟩ => rfl)).trans ?_
    rw [ref_W, simWarr_apply]
    exact (simMaps_lo lab vec b ⟨k.val, hk⟩ k rfl h w).symm
  · refine (concatenate_pair_apply_right (t := S16x16x256x256) (s₁ := S16x8x256x256) (s₂ := S16x8x256x256) (1 : Fin 4)
      (val_main_v26 (F := Ideal) lab) (val_main_v50 (F := Ideal) vec) concatenates_S16x8x256x256_S16x8x256x256_S16x16x256x256_d1
      (ix4 b k h w) rfl rfl (ix4 b (⟨k.val - 8, by omega⟩ : Fin 8) h w) (fun a ha => by
        match a with
        | ⟨0, _⟩ => rfl
        | ⟨1, _⟩ => exact absurd rfl ha
        | ⟨2, _⟩ => rfl
        | ⟨3, _⟩ => rfl) (by show k.val - 8 + 8 = k.val; omega)).trans ?_
    rw [ref_V, simVarr_apply]
    exact (simMaps_hi lab vec b ⟨k.val - 8, by omega⟩ k (by show k.val = 8 + (k.val - 8); omega) h w).symm

/-- The loss: the program's last operations are, word for word, the specification's, applied to the two halves. -/
theorem ref_loss (lab : (⟨S16x3x256x256, .f32⟩ : BufTy).Contents (Elt Ideal)) (vec : (⟨S16x6x256x256, .f32⟩ : BufTy).Contents (Elt Ideal)) :
    val_main_v56 (F := Ideal) lab vec
      = lossOf (simWarr lab) (simVarr vec) bcast_S_S16x8x256x256 reducesTo_S16x8x256x256_S_d0_1_2_3 h_S_ := by
  rw [← ref_W lab, ← ref_V vec]
  unfold val_main_v56 val_main_v55 val_main_v54 val_main_v53 val_main_v52 val_main_v51 val_main_cst_3 val_main_cst_4
    val_main_cst_5 lossOf
  rfl

end Cert.RefSide

end
-- ==== Proof.lean ====
/-
  The certificate of a neighbour-similarity kernel against its reference.

  Both programs take two image batches, `lab` [16, 3, 256, 256] and `vec` [16, 6, 256, 256], and return sixteen
  similarity maps [16, 16, 256, 256] and one loss. For each of the eight neighbours of a pixel in a 3×3 window (a
  neighbour outside the image counts as zero) the squared distance over the channels is `∑ c, (x − neighbour)²`; maps
  0–7 are `exp(−√·)` of `lab`'s distances, maps 8–15 are `√·` of `vec`'s, and the loss is the mean of maps 8–15 where the
  matching map of 0–7 is at least 0.1 (Proof/Spec.lean states all of it, index by index).

  The kernel works on one batch entry per grid point: it rolls the block by one row and/or column around the end and
  zeroes the wrapped row and column, which is the zero-bordered neighbour (Proof/Shifts.lean, Proof/Planes.lean: each of
  its sixteen stored planes read at a pixel; Proof/Block.lean: the planes tile the output block; Proof/KernelArray.lean:
  the sixteen blocks tile the result array; Proof/KernelRun.lean: the loss computed after the region from the two
  halves of the maps). The reference pads both images with a border of zeros, cuts the eight shifted windows out of
  the padded image, and stacks them (Proof/RefSide.lean: its stages read at an index). At the extended reals both
  are the specification's functions of the arguments — no law of arithmetic beyond reading each operation at an
  index is needed, so the precondition (finite inputs) is never opened — and the two frames of the kernel are the
  generated ones, the reference's frame its generated run with the results dropped; the idealization rewrote nothing.
-/
import proofs.«103307_j44281112822069_1_alg».proof.Defs
import proofs.«103307_j44281112822069_1_alg».proof.Proof.Gen.Kernel
import proofs.«103307_j44281112822069_1_alg».proof.Proof.Gen.Kernel.Skeleton
import proofs.«103307_j44281112822069_1_alg».proof.Proof.Gen.Kernel.Launch
import proofs.«103307_j44281112822069_1_alg».proof.Proof.Gen.Kernel.Points
import proofs.«103307_j44281112822069_1_alg».proof.Proof.Gen.Kernel.Frame
import proofs.«103307_j44281112822069_1_alg».proof.Proof.Gen.KernelIdeal
import proofs.«103307_j44281112822069_1_alg».proof.Proof.Gen.KernelIdeal.Skeleton
import proofs.«103307_j44281112822069_1_alg».proof.Proof.Gen.KernelIdeal.Launch
import proofs.«103307_j44281112822069_1_alg».proof.Proof.Gen.KernelIdeal.Points
import proofs.«103307_j44281112822069_1_alg».proof.Proof.Gen.KernelIdeal.Frame
import proofs.«103307_j44281112822069_1_alg».proof.Proof.Gen.ReferenceIdeal
import proofs.«103307_j44281112822069_1_alg».proof.Proof.Gen.Pre_finite_inputs
import proofs.«103307_j44281112822069_1_alg».proof.Proof.Gen.ReferenceIdeal.Run
import proofs.«103307_j44281112822069_1_alg».proof.Proof.Gen.ReferenceIdeal.Read
import proofs.«103307_j44281112822069_1_alg».proof.Proof.Spec
import proofs.«103307_j44281112822069_1_alg».proof.Proof.Block
import proofs.«103307_j44281112822069_1_alg».proof.Proof.KernelRun
import proofs.«103307_j44281112822069_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the extended reals the kernel ends with the specification's maps and loss of its arguments, and the reference
    with the specification's maps and loss of its own, which agree with the kernel's. -/
theorem algebraic : Cert.algebraic_KernelIdeal_ReferenceIdeal := by
  intro m ρ m' ρ' _ hagree
  refine ⟨_, _, Cert.KernelRun.run m ρ Cert.Block.out_eq, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v57_eq, Cert.RefSide.ref_maps, (hagree c).1, (hagree c).2]
  · rw [(h c).2.1, Cert.ReferenceIdeal.Read.val_main_v56_eq, Cert.RefSide.ref_loss, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
